-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S1600000x128 : Shape := ⟨2, ![1600000, 128]⟩
abbrev S1x128 : Shape := ⟨2, ![1, 128]⟩
abbrev S100000x64 : Shape := ⟨2, ![100000, 64]⟩
abbrev S5000x1 : Shape := ⟨2, ![5000, 1]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 123
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .i1⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x1, .f32⟩
  | .hbm, ⟨42, _⟩ => ⟨S100000x128, .bf16⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .bf16⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x128, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x1, .f32⟩
  | .hbm, ⟨75, _⟩ => ⟨S1600000x128, .f32⟩
  | .hbm, ⟨76, _⟩ => ⟨S1600000x128, .f32⟩
  | .hbm, ⟨77, _⟩ => ⟨S_, .f32⟩
  | .hbm, ⟨78, _⟩ => ⟨S100000x128, .f32⟩
  | .hbm, ⟨79, _⟩ => ⟨S1600000x1, .i32⟩
  | .hbm, ⟨80, _⟩ => ⟨S100000x128, .f32⟩
  | .hbm, ⟨81, _⟩ => ⟨S1x128, .f32⟩
  | .hbm, ⟨82, _⟩ => ⟨S100000x64, .bf16⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000x64, .bf16⟩
  | .hbm, ⟨92, _⟩ => ⟨S1600000x64, .f32⟩
  | .hbm, ⟨93, _⟩ => ⟨S_, .f32⟩
  | .hbm, ⟨94, _⟩ => ⟨S100000x64, .f32⟩
  | .hbm, ⟨95, _⟩ => ⟨S1600000x1, .i32⟩
  | .hbm, ⟨96, _⟩ => ⟨S100000x64, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x64, .f32⟩
  | .hbm, ⟨106, _⟩ => ⟨S_, .i32⟩
  | .hbm, ⟨107, _⟩ => ⟨S1600000, .i32⟩
  | .hbm, ⟨108, _⟩ => ⟨S1600000, .i1⟩
  | .hbm, ⟨109, _⟩ => ⟨S_, .i32⟩
  | .hbm, ⟨110, _⟩ => ⟨S1600000, .i32⟩
  | .hbm, ⟨111, _⟩ => ⟨S1600000, .i32⟩
  | .hbm, ⟨112, _⟩ => ⟨S1600000, .i32⟩
  | .hbm, ⟨113, _⟩ => ⟨S1600000x1, .i32⟩
  | .hbm, ⟨114, _⟩ => ⟨S1600000x1, .f32⟩
  | .hbm, ⟨115, _⟩ => ⟨S1600000x64, .f32⟩
  | .hbm, ⟨116, _⟩ => ⟨S1600000x64, .f32⟩
  | .hbm, ⟨117, _⟩ => ⟨S_, .f32⟩
  | .hbm, ⟨118, _⟩ => ⟨S100000x64, .f32⟩
  | .hbm, ⟨119, _⟩ => ⟨S1600000x1, .i32⟩
  | .hbm, ⟨120, _⟩ => ⟨S100000x64, .f32⟩
  | .hbm, ⟨121, _⟩ => ⟨S1x64, .f32⟩
  | .hbm, ⟨122, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .bf16⟩
  | .local _ .vmem, ⟨4, _⟩ => ⟨S5000x128, .bf16⟩
  | .local _ .vmem, ⟨5, _⟩ => ⟨S5000x128, .f32⟩
  | .local _ .vmem, ⟨6, _⟩ => ⟨S5000x128, .f32⟩
  | .local _ .vmem, ⟨7, _⟩ => ⟨S5000x1, .f32⟩
  | .local _ .vmem, ⟨8, _⟩ => ⟨S5000x1, .f32⟩
  | .local _ .vmem, ⟨9, _⟩ => ⟨S1x128, .f32⟩
  | .local _ .vmem, ⟨10, _⟩ => ⟨S128x64, .f32⟩
  | .local _ .vmem, ⟨11, _⟩ => ⟨S5000x64, .bf16⟩
  | .local _ .vmem, ⟨12, _⟩ => ⟨S5000x64, .bf16⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c : Ref sig .tc := ⟨.hbm, 43, rfl⟩
abbrev main_v24 : Ref sig .tc := ⟨.hbm, 44, rfl⟩
abbrev main_v25 : Ref sig .tc := ⟨.hbm, 45, rfl⟩
abbrev main_c_8 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_9 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_10 : Ref sig .tc := ⟨.hbm, 57, rfl⟩
abbrev main_v35 : Ref sig .tc := ⟨.hbm, 58, rfl⟩
abbrev main_v36 : Ref sig .tc := ⟨.hbm, 59, rfl⟩
abbrev main_c_11 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_12 : Ref sig .tc := ⟨.hbm, 66, rfl⟩
abbrev main_v42 : Ref sig .tc := ⟨.hbm, 67, rfl⟩
abbrev main_v43 : Ref sig .tc := ⟨.hbm, 68, rfl⟩
abbrev main_c_13 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_14 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_15 : Ref sig .tc := ⟨.hbm, 83, rfl⟩
abbrev main_v56 : Ref sig .tc := ⟨.hbm, 84, rfl⟩
abbrev main_v57 : Ref sig .tc := ⟨.hbm, 85, rfl⟩
abbrev main_c_16 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_17 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_18 : Ref sig .tc := ⟨.hbm, 97, rfl⟩
abbrev main_v67 : Ref sig .tc := ⟨.hbm, 98, rfl⟩
abbrev main_v68 : Ref sig .tc := ⟨.hbm, 99, rfl⟩
abbrev main_c_19 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_20 : Ref sig .tc := ⟨.hbm, 106, rfl⟩
abbrev main_v74 : Ref sig .tc := ⟨.hbm, 107, rfl⟩
abbrev main_v75 : Ref sig .tc := ⟨.hbm, 108, rfl⟩
abbrev main_c_21 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_22 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  bcast_S1600000x1_S1600000x128_0_1 : S1600000x1.BroadcastsInDim S1600000x128 (![0, 1] : Fin 2 → Fin S1600000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  bcast_S1600000x1_S1600000x64_0_1 : S1600000x1.BroadcastsInDim S1600000x64 (![0, 1] : Fin 2 → Fin S1600000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x1_S1600000x1_S1600000x1_1_0_n_n_0_1_11_wf : GatherDims.WF S100000x1 S1600000x1 S1600000x1 [1] [0] [] [0] [] 1 ![1, 1]
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .bf16 = 32 ∨ (Rect.block (s := S100000x128) S5000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .bf16 = 32 ∨ (Rect.block (s := S100000x64) S5000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v54) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v55) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v85) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v86) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v87) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 145
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x64, .f32⟩
  | 5 => ⟨S64, .f32⟩
  | 6 => ⟨S1x1600000, .i32⟩
  | 7 => ⟨S1600000, .i32⟩
  | 8 => ⟨S1x1600000, .i32⟩
  | 9 => ⟨S1600000, .i32⟩
  | 10 => ⟨S100000x128, .f32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .f32⟩
  | 32 => ⟨S100000, .f32⟩
  | 33 => ⟨S100000, .i1⟩
  | 34 => ⟨S_, .f32⟩
  | 35 => ⟨S100000, .f32⟩
  | 36 => ⟨S100000, .f32⟩
  | 37 => ⟨S_, .f32⟩
  | 38 => ⟨S_, .f32⟩
  | 39 => ⟨S100000, .f32⟩
  | 40 => ⟨S100000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x128, .f32⟩
  | 50 => ⟨S_, .f32⟩
  | 51 => ⟨S100000x128, .f32⟩
  | 52 => ⟨S1600000x1, .i32⟩
  | 53 => ⟨S100000x128, .f32⟩
  | 54 => ⟨S100000x1, .f32⟩
  | 55 => ⟨S100000x128, .f32⟩
  | 56 => ⟨S100000x128, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x128, .f32⟩
  | 66 => ⟨S_, .f32⟩
  | 67 => ⟨S100000x128, .f32⟩
  | 68 => ⟨S1600000x1, .i32⟩
  | 69 => ⟨S100000x128, .f32⟩
  | 70 => ⟨S100000x1, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S100000x64, .f32⟩
  | 80 => ⟨S_, .f32⟩
  | 81 => ⟨S1600000, .f32⟩
  | 82 => ⟨S_, .f32⟩
  | 83 => ⟨S100000, .f32⟩
  | 84 => ⟨S1600000x1, .i32⟩
  | 85 => ⟨S100000, .f32⟩
  | 86 => ⟨S_, .f32⟩
  | 87 => ⟨S100000, .f32⟩
  | 88 => ⟨S1600000x1, .i32⟩
  | 89 => ⟨S100000, .f32⟩
  | 90 => ⟨S_, .f32⟩
  | 91 => ⟨S100000, .f32⟩
  | 92 => ⟨S100000, .i1⟩
  | 93 => ⟨S_, .f32⟩
  | 94 => ⟨S100000, .f32⟩
  | 95 => ⟨S100000, .f32⟩
  | 96 => ⟨S_, .f32⟩
  | 97 => ⟨S_, .f32⟩
  | 98 => ⟨S100000, .f32⟩
  | 99 => ⟨S100000, .f32⟩
  | 100 => ⟨S_, .f32⟩
  | 101 => ⟨S100000, .f32⟩
  | 102 => ⟨S100000, .i1⟩
  | 103 => ⟨S_, .f32⟩
  | 104 => ⟨S100000, .f32⟩
  | 105 => ⟨S100000, .f32⟩
  | 106 => ⟨S_, .f32⟩
  | 107 => ⟨S_, .f32⟩
  | 108 => ⟨S100000, .f32⟩
  | 109 => ⟨S100000, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x64, .f32⟩
  | 119 => ⟨S_, .f32⟩
  | 120 => ⟨S100000x64, .f32⟩
  | 121 => ⟨S1600000x1, .i32⟩
  | 122 => ⟨S100000x64, .f32⟩
  | 123 => ⟨S100000x1, .f32⟩
  | 124 => ⟨S100000x64, .f32⟩
  | 125 => ⟨S100000x64, .f32⟩
  | 126 => ⟨S_, .i32⟩
  | 127 => ⟨S1600000, .i32⟩
  | _ => ⟨S100000x128, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000x64, .f32⟩
  | 7 => ⟨S_, .f32⟩
  | 8 => ⟨S100000x64, .f32⟩
  | 9 => ⟨S1600000x1, .i32⟩
  | 10 => ⟨S100000x64, .f32⟩
  | 11 => ⟨S100000x1, .f32⟩
  | 12 => ⟨S100000x64, .f32⟩
  | 13 => ⟨S100000x64, .f32⟩
  | 14 => ⟨S1x64, .f32⟩
  | 15 => ⟨S100000x64, .f32⟩
  | 16 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_call1_v0 : Ref sig .tc := ⟨.hbm, 38, rfl⟩
abbrev main_call1_v1 : Ref sig .tc := ⟨.hbm, 39, rfl⟩
abbrev main_v21 : Ref sig .tc := ⟨.hbm, 40, rfl⟩
abbrev main_c : Ref sig .tc := ⟨.hbm, 41, rfl⟩
abbrev main_v22 : Ref sig .tc := ⟨.hbm, 42, rfl⟩
abbrev main_v23 : Ref sig .tc := ⟨.hbm, 43, rfl⟩
abbrev main_c_8 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_9 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_10 : Ref sig .tc := ⟨.hbm, 57, rfl⟩
abbrev main_v35 : Ref sig .tc := ⟨.hbm, 58, rfl⟩
abbrev main_v36 : Ref sig .tc := ⟨.hbm, 59, rfl⟩
abbrev main_c_11 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_12 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call2_cst : Ref sig .tc := ⟨.hbm, 76, rfl⟩
abbrev main_call2_v0 : Ref sig .tc := ⟨.hbm, 77, rfl⟩
abbrev main_v51 : Ref sig .tc := ⟨.hbm, 78, rfl⟩
abbrev main_v52 : Ref sig .tc := ⟨.hbm, 79, rfl⟩
abbrev main_cst_13 : Ref sig .tc := ⟨.hbm, 80, rfl⟩
abbrev main_v53 : Ref sig .tc := ⟨.hbm, 81, rfl⟩
abbrev main_cst_14 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_15 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_16 : Ref sig .tc := ⟨.hbm, 90, rfl⟩
abbrev main_v60 : Ref sig .tc := ⟨.hbm, 91, rfl⟩
abbrev main_v61 : Ref sig .tc := ⟨.hbm, 92, rfl⟩
abbrev main_cst_17 : Ref sig .tc := ⟨.hbm, 93, rfl⟩
abbrev main_v62 : Ref sig .tc := ⟨.hbm, 94, rfl⟩
abbrev main_v63 : Ref sig .tc := ⟨.hbm, 95, rfl⟩
abbrev main_cst_18 : Ref sig .tc := ⟨.hbm, 96, rfl⟩
abbrev main_call3_v0 : Ref sig .tc := ⟨.hbm, 97, rfl⟩
abbrev main_call3_v1 : Ref sig .tc := ⟨.hbm, 98, rfl⟩
abbrev main_v64 : Ref sig .tc := ⟨.hbm, 99, rfl⟩
abbrev main_cst_19 : Ref sig .tc := ⟨.hbm, 100, rfl⟩
abbrev main_v65 : Ref sig .tc := ⟨.hbm, 101, rfl⟩
abbrev main_v66 : Ref sig .tc := ⟨.hbm, 102, rfl⟩
abbrev main_cst_20 : Ref sig .tc := ⟨.hbm, 103, rfl⟩
abbrev main_v67 : Ref sig .tc := ⟨.hbm, 104, rfl⟩
abbrev main_v68 : Ref sig .tc := ⟨.hbm, 105, rfl⟩
abbrev main_cst_21 : Ref sig .tc := ⟨.hbm, 106, rfl⟩
abbrev main_call4_v0 : Ref sig .tc := ⟨.hbm, 107, rfl⟩
abbrev main_call4_v1 : Ref sig .tc := ⟨.hbm, 108, rfl⟩
abbrev main_v69 : Ref sig .tc := ⟨.hbm, 109, rfl⟩
abbrev main_c_22 : Ref sig .tc := ⟨.hbm, 110, rfl⟩
abbrev main_v70 : Ref sig .tc := ⟨.hbm, 111, rfl⟩
abbrev main_v71 : Ref sig .tc := ⟨.hbm, 112, rfl⟩
abbrev main_c_23 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_24 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_c_25 : Ref sig .tc := ⟨.hbm, 126, rfl⟩
abbrev main_v83 : Ref sig .tc := ⟨.hbm, 127, rfl⟩
abbrev main_v84 : Ref sig .tc := ⟨.hbm, 128, rfl⟩
abbrev main_c_26 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_27 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel's run, with its result named.

  @main is ten segments: five stretches of host operations (the two index rows, both degree vectors and their guarded
  reciprocals, the reciprocals as columns), the first projection `x · W1` tiled over 20 row blocks, the first
  gather–scatter round on the host, the fused `relu (raw · d⁻¹ + b1) · W2` over 20 row blocks, the second gather–scatter
  round, and the final `raw · d⁻¹ + b2` over 20 row blocks. Every weakly fair execution runs through them in order, and
  at the end each buffer outside the kernels' scratch holds the last boundary's contents: a fold from the launch
  memory in which a host stretch contributes its operations' results and a tiled region contributes, for each of its
  arrays, the array after all 20 write-backs. So the result buffer ends at that fold read at the result's name, and the
  six arguments end as launched.
-/
import proofs.«113165_j85074712199280_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents read at its name, and every argument array ends as launched. -/
theorem run : θ_run defs (onTc (τ := τ) (main (F := F))) ⟨m, fun _ => 0, ρ⟩ (fun r => ∀ c : Dev nD,
      r.2.mem ((c.tc : Thread nD τ).loc main_v87) = W10 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v87 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.ValueRun

end
-- ==== Proof.LibPlainDot.lean ====
/-
  A plain matrix product read at an index, at the ideal instance.

  The dimension numbers `DotDims.plain M K N` contract the left operand's second axis with the right
  operand's first: an `M × K` matrix by a `K × N` matrix. Over the extended reals both the kernel's
  matrix product into a zero accumulator and the host's `dot_general` are, at the entry `(i, j)`, the sum
  over `k : Fin K` of `lhs (i, k) * rhs (k, j)`. The library states this sum over the contracted SHAPE's
  index type; here it is re-indexed once, for every `M K N`, over `Fin K`, with both operand indices
  written from coordinates. A printed record whose six lists are those of `DotDims.plain` is that record
  (its well-formedness field is a proposition), so the lemmas apply to it after `rw [show d = .plain _ _ _ from rfl]`.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- The contraction of a plain product, re-indexed over `Fin K`. -/
theorem sum_eq (lhs : (⟨2, ![M, K]⟩ : Shape).Idx → EReal) (rhs : (⟨2, ![K, N]⟩ : Shape).Idx → EReal)
    (j : (⟨2, ![M, N]⟩ : Shape).Idx) :
    ∑ q : (DotDims.plain M K N).contr.Idx, lhs ((DotDims.plain M K N).lhsIdx j q) * rhs ((DotDims.plain M K N).rhsIdx j q)
      = ∑ k : Fin K, lhs (ix2 (j 0) k) * rhs (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row M K N _ _
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => exact rhs_col M K N _ _)
  exact congrArg₂ (· * ·) (congrArg lhs el) (congrArg rhs er)

variable {M K N}

/-- The kernel's matrix product into a zero accumulator, at `(i, j)`: the sum over `k` of `lhs (i, k) * rhs (k, j)`. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant (F := Ideal) ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_eq M K N lhs rhs (ix2 i j))

/-- The host's `dot_general` of the same operands, at `(i, j)`: the same sum. -/
theorem dotGeneral_apply {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (DotDims.plain M K N) prec lhs rhs (ix2 i j)
      = ∑ k : Fin K, lhs (ix2 i k) * rhs (ix2 k j) := by
  simp only [Host.dotGeneral]
  exact (Ideal.dotGeneral_apply (DotDims.plain M K N) prec _ lhs rhs (ix2 i j)).trans (sum_eq M K N lhs rhs (ix2 i j))

end Idealize.ShloMosaic.PlainDot

end
-- ==== Proof.Project0.lean ====
/-
  The first tiled region: each of its 20 row blocks takes 5000 rows of `x` and the whole 128 × 128 weight matrix and
  stores their product. Narrowing to the half-width format and back is the identity on the extended reals, and a matrix
  product into a zero accumulator is, at `(p, q)`, the sum over `k` of `x (p, k) · W (k, q)`. Block `t` of the two
  row-tiled windows is rows `5000 t … 5000 t + 4999`, the weight window is the whole matrix at every point, and the
  20 output blocks tile the result: the result array ends holding, at `(i, j)`, `∑ k, x (i, k) · W (k, j)`.
-/
import proofs.«113165_j85074712199280_2_alg».proof.Proof.Gen.KernelIdeal.Frame
import proofs.«113165_j85074712199280_2_alg».proof.Proof.LibPlainDot
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

open scoped BigOperators

namespace Cert.KernelIdeal.Tiles0

open Cert.KernelIdeal Cert.KernelIdeal.Gen

theorem hz : (![0, 0] : Fin 2 → Nat) = fun _ => 0 := funext fun a => by fin_cases a <;> rfl

/-- The rows of `x` times the 128 × 128 matrix `w`. -/
def proj128 (x : S100000x128.Idx → EReal) (w : S128x128.Idx → EReal) : S100000x128.Idx → EReal :=
  fun i => ∑ k : Fin 128, x (ix2 (⟨(i 0).val, (i 0).isLt⟩ : Fin 100000) k) * w (ix2 k (⟨(i 1).val, (i 1).isLt⟩ : Fin 128))

/-- One entry of the tile's stored value: a row of the block against a column of the matrix. -/
theorem pay0_apply (x0 : FVec Ideal S5000x128 .f32) (x1 : FVec Ideal S128x128 .f32) (p : Fin 5000) (q : Fin 128) :
    k0_pay1 (F := Ideal) x0 x1 (ix2 p q) = ∑ k : Fin 128, x0 (ix2 p k) * x1 (ix2 k q) := by
  unfold k0_pay1
  exact PlainDot.matmul_zero_apply (M := 5000) (K := 128) (N := 128) none (truncf .bf16 x0 bitsLt_bf16_f32) (truncf .bf16 x1 bitsLt_bf16_f32) p q

section
variable (V : (c : Dev nD) → (b : Ref sig .tc) → Buf (Elt Ideal) ((c : Thread nD τ).loc b))

/-- The printed index maps over the grid: the two row-tiled windows sit at row block `t`, column block 0; the
    matrix's window stays at its one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Window 0's block at point `t` is rows `5000 t … 5000 t + 4999` of `x`. -/
theorem iblk0_0_apply (c : Dev nD) (t : Fin cfg0.N) (p : Fin 5000) (k : Fin 128) (r : Fin 100000) (hr : r.val = 5000 * t.val + p.val) :
    (iblk0 V c 0 t : FVec Ideal S5000x128 .f32) (ix2 p k) = (V c main_arg0 : S100000x128.Idx → EReal) (ix2 r k) := by
  obtain ⟨e00, e01, -⟩ := idx0 t
  unfold iblk0
  rw [View.read_apply]
  show V c main_arg0 _ = V c main_arg0 _
  congr 1
  funext a; apply Fin.ext
  match a with
  | ⟨0, _⟩ => show win0_0.index t 0 * 5000 + 1 * p.val = r.val; rw [e00, hr]; omega
  | ⟨1, _⟩ => show win0_0.index t 1 * 128 + 1 * k.val = k.val; rw [e01]; omega

/-- Window 1's block at every point is the whole matrix. -/
theorem iblk0_1_apply (c : Dev nD) (t : Fin cfg0.N) (k : Fin 128) (q : Fin 128) :
    (iblk0 V c 1 t : FVec Ideal S128x128 .f32) (ix2 k q) = (V c main_arg2 : S128x128.Idx → EReal) (ix2 k q) := by
  obtain ⟨-, -, e10, e11, -⟩ := idx0 t
  unfold iblk0
  rw [View.read_apply]
  show V c main_arg2 _ = V c main_arg2 _
  congr 1
  funext a; apply Fin.ext
  match a with
  | ⟨0, _⟩ => show win0_1.index t 0 * 128 + 1 * k.val = k.val; rw [e10]; omega
  | ⟨1, _⟩ => show win0_1.index t 1 * 128 + 1 * q.val = q.val; rw [e11]; omega

/-- What point `t` writes back is block `t` of the product. -/
theorem flushed0 (c : Dev nD) (t : Fin cfg0.N) :
    (dat0 V c).flushed 2 t = ((cfg0.win 2).blk t).view.read (Elt Ideal) (proj128 (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e00, e01, e10, e11, e20, e21⟩ := idx0 t
  funext j
  have hp : (j 0).val < 5000 := (j 0).isLt
  have hq : (j 1).val < 128 := (j 1).isLt
  have hx : (cfg0.win 2).xinj (grid0.coords t) j = ix2 (⟨(j 0).val, hp⟩ : Fin 5000) (⟨(j 1).val, hq⟩ : Fin 128) :=
    funext fun a => Fin.ext (by
      match a with
      | ⟨0, _⟩ => rfl
      | ⟨1, _⟩ => rfl)
  show k0_pay1 (iblk0 V c 0 t) (iblk0 V c 1 t) ((cfg0.win 2).xinj (grid0.coords t) j)
    = proj128 (V c main_arg0) (V c main_arg2) (((cfg0.win 2).blk t).view.emb j)
  refine (congrArg (k0_pay1 (iblk0 V c 0 t) (iblk0 V c 1 t)) hx).trans ((pay0_apply _ _ _ _).trans ?_)
  have k0 : ((((cfg0.win 2).blk t).view.emb j) 0).val = 5000 * t.val + (j 0).val := by
    show win0_2.index t 0 * 5000 + 1 * (j 0).val = _; rw [e20]; omega
  have k1 : ((((cfg0.win 2).blk t).view.emb j) 1).val = (j 1).val := by
    show win0_2.index t 1 * 128 + 1 * (j 1).val = _; rw [e21]; omega
  unfold proj128
  refine Finset.sum_congr rfl fun k _ => ?_
  refine congrArg₂ (· * ·) (iblk0_0_apply V c t _ k _ (by show _ = 5000 * t.val + (j 0).val; exact k0)) ?_
  refine (iblk0_1_apply V c t k _).trans ?_
  exact congrArg (fun q : Fin 128 => (V c main_arg2 : S128x128.Idx → EReal) (ix2 k q)) (Fin.ext k1.symm)

/-- An index of the result is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v23).slice (win0_2.rect t)).set ↔ _
  rw [View.set_slice_whole, Rect.mem_set_unit]
  exact Iff.rfl

/-- Row `r` of the result is in the block of point `r / 5000`. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 20 := N_0
  have ht : (i 0).val / 5000 < cfg0.N := by show _ < grid0.N; omega
  refine ⟨⟨(i 0).val / 5000, ht⟩, flush0_2 _, ?_⟩
  rw [mem_blk0]
  obtain ⟨-, -, -, -, e20, e21⟩ := idx0 ⟨(i 0).val / 5000, ht⟩
  intro a
  match a with
  | ⟨0, _⟩ =>
    show win0_2.index ⟨(i 0).val / 5000, ht⟩ 0 * 5000 ≤ (i 0).val ∧ (i 0).val < win0_2.index ⟨(i 0).val / 5000, ht⟩ 0 * 5000 + 5000
    rw [e20]; show (i 0).val / 5000 * 5000 ≤ (i 0).val ∧ (i 0).val < (i 0).val / 5000 * 5000 + 5000; omega
  | ⟨1, _⟩ =>
    show win0_2.index ⟨(i 0).val / 5000, ht⟩ 1 * 128 ≤ (i 1).val ∧ (i 1).val < win0_2.index ⟨(i 0).val / 5000, ht⟩ 1 * 128 + 128
    rw [e21]; omega

/-- The result array after the region's 20 write-backs. -/
theorem final0 (c : Dev nD) : (dat0 V c).arrAt 2 cfg0.N = proj128 (V c main_arg0) (V c main_arg2) :=
  (dat0 V c).arrAt_eq_of_cover 2 _ (fun t _ => flushed0 V c t) cover0

end

end Cert.KernelIdeal.Tiles0

end
-- ==== Proof.LibColumn.lean ====
/-
  Column vectors read at an index given by coordinates: a vector of length `a` cast to an `[a, 1]` column, and an
  `[a, 1]` column broadcast over `b` columns. (The library's Lib/ValueLayout.lean has the row forms, `[a] → [1, a]` and
  `[1, b] → [a, b]`; these are their transposes, proved the same way from `shapeCast_apply` and `broadcastTo_apply`.)
-/
import Idealize.ShloMosaic.Lib.Pipeline.Value
import Idealize.ShloMosaic.Lib.ValueIdx

namespace ColumnLayout

open Idealize.ShloMosaic Idealize.ShloMosaic.ValueIdx

variable {α : Type}

/-- An `[a]` vector cast to an `[a, 1]` column reads, at `(p, u)`, the vector at `p`, whatever the unit
    coordinate `u`: both indices have row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The entries of an `[a, 1]` column as a vector of length `a`. -/
def colVec {a : ℕ} (v : (⟨2, ![a, 1]⟩ : Shape).Idx → α) : (⟨1, ![a]⟩ : Shape).Idx → α :=
  fun i => v (ix2 ⟨(i 0).val, (i 0).isLt⟩ (0 : Fin 1))

theorem colVec_ix1 {a : ℕ} (v : (⟨2, ![a, 1]⟩ : Shape).Idx → α) (p : Fin a) : colVec v (ix1 p) = v (ix2 p (0 : Fin 1)) := rfl

/-- The one row of a `[1, b]` array as a vector of length `b`. -/
def rowVec {b : ℕ} (v : (⟨2, ![1, b]⟩ : Shape).Idx → α) : (⟨1, ![b]⟩ : Shape).Idx → α :=
  fun i => v (ix2 (0 : Fin 1) ⟨(i 0).val, (i 0).isLt⟩)

theorem rowVec_ix1 {b : ℕ} (v : (⟨2, ![1, b]⟩ : Shape).Idx → α) (q : Fin b) : rowVec v (ix1 q) = v (ix2 (0 : Fin 1) q) := rfl

end ColumnLayout
-- ==== Proof.Fused1.lean ====
/-
  The second tiled region, the layer boundary fused with the second projection: each of its 20 row blocks takes 5000
  rows of the first layer's raw node sums, scales every row by its entry of the inverse-degree column, adds the bias
  row, takes the maximum with zero, and multiplies the result by the whole 128 × 64 weight matrix. Narrowing to the
  half-width format is the identity on the extended reals and a matrix product into a zero accumulator is a sum over
  the contracted axis, so the result array ends holding, at `(i, j)`,
  `∑ k, max (raw (i, k) · d (i, 0) + b (0, k)) 0 · W (k, j)` of the arrays the region finds at its entry.
-/
import proofs.«113165_j85074712199280_2_alg».proof.Proof.Gen.KernelIdeal.Frame
import proofs.«113165_j85074712199280_2_alg».proof.Proof.LibPlainDot
import proofs.«113165_j85074712199280_2_alg».proof.Proof.LibColumn
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

open scoped BigOperators

namespace Cert.KernelIdeal.Tiles1

open Cert.KernelIdeal Cert.KernelIdeal.Gen

theorem hz : (![0, 0] : Fin 2 → Nat) = fun _ => 0 := funext fun a => by fin_cases a <;> rfl

/-- The rows scaled, shifted and cut off below at zero, then times the 128 × 64 matrix `w`. -/
def fused64 (raw : S100000x128.Idx → EReal) (d : S100000x1.Idx → EReal) (b : S1x128.Idx → EReal) (w : S128x64.Idx → EReal) :
    S100000x64.Idx → EReal :=
  fun i => ∑ k : Fin 128,
    max (raw (ix2 (⟨(i 0).val, (i 0).isLt⟩ : Fin 100000) k) * d (ix2 (⟨(i 0).val, (i 0).isLt⟩ : Fin 100000) (0 : Fin 1)) + b (ix2 (0 : Fin 1) k))
        (Ideal.ofBits .f32 0x00000000#32)
      * w (ix2 k (⟨(i 1).val, (i 1).isLt⟩ : Fin 64))

/-- One entry of the activation the tile feeds to the product. -/
theorem act_apply (x0 : FVec Ideal S5000x128 .f32) (x1 : FVec Ideal S5000x1 .f32) (x2 : FVec Ideal S1x128 .f32) (p : Fin 5000) (k : Fin 128) :
    maximumf (addf (mulf x0 (broadcastTo S5000x128 x1 broadcasts_S5000x1_S5000x128)) (broadcastTo S5000x128 x2 broadcasts_S1x128_S5000x128))
        (broadcast S5000x128 (Scalar.ofBits (F := Ideal) .f32 0x00000000#32)) (ix2 p k)
      = max (x0 (ix2 p k) * x1 (ix2 p (0 : Fin 1)) + x2 (ix2 (0 : Fin 1) k)) (Ideal.ofBits .f32 0x00000000#32) := by
  refine (maximumf_apply _ _ _).trans ?_
  refine congrArg₂ max ?_ rfl
  refine (addf_apply _ _ _).trans ?_
  exact congrArg₂ (· + ·) ((mulf_apply _ _ _).trans (congrArg (x0 (ix2 p k) * ·) (ColumnLayout.broadcastTo_a1_ab_apply x1 _ p k)))
    (broadcastTo_1b_ab_apply x2 _ p k)

/-- One entry of the tile's stored value: a row of the activation against a column of the matrix. -/
theorem pay1_apply (x0 : FVec Ideal S5000x128 .f32) (x1 : FVec Ideal S5000x1 .f32) (x2 : FVec Ideal S1x128 .f32) (x3 : FVec Ideal S128x64 .f32)
    (p : Fin 5000) (q : Fin 64) :
    k1_pay1 (F := Ideal) x0 x1 x2 x3 (ix2 p q)
      = ∑ k : Fin 128, max (x0 (ix2 p k) * x1 (ix2 p (0 : Fin 1)) + x2 (ix2 (0 : Fin 1) k)) (Ideal.ofBits .f32 0x00000000#32) * x3 (ix2 k q) := by
  unfold k1_pay1
  simp only [shapeCast_self]
  refine (PlainDot.matmul_zero_apply (M := 5000) (K := 128) (N := 64) none
    (truncf .bf16 (maximumf (addf (mulf x0 (broadcastTo S5000x128 x1 broadcasts_S5000x1_S5000x128)) (broadcastTo S5000x128 x2 broadcasts_S1x128_S5000x128))
        (broadcast S5000x128 (Scalar.ofBits (F := Ideal) .f32 0x00000000#32))) bitsLt_bf16_f32)
    (truncf .bf16 x3 bitsLt_bf16_f32) p q).trans ?_
  exact Finset.sum_congr rfl fun k _ => congrArg (· * x3 (ix2 k q)) (act_apply x0 x1 x2 p k)

section
variable (V : (c : Dev nD) → (b : Ref sig .tc) → Buf (Elt Ideal) ((c : Thread nD τ).loc b))

/-- The printed index maps over the grid: the three row-tiled windows sit at row block `t`, column block 0; the bias
    row's and the matrix's windows stay at their one block. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Window 0's block at point `t` is rows `5000 t … 5000 t + 4999` of the raw sums. -/
theorem iblk1_0_apply (c : Dev nD) (t : Fin cfg1.N) (p : Fin 5000) (k : Fin 128) (r : Fin 100000) (hr : r.val = 5000 * t.val + p.val) :
    (iblk1 V c 0 t : FVec Ideal S5000x128 .f32) (ix2 p k) = (V c main_v53 : S100000x128.Idx → EReal) (ix2 r k) := by
  obtain ⟨e00, e01, -⟩ := idx1 t
  unfold iblk1
  rw [View.read_apply]
  show V c main_v53 _ = V c main_v53 _
  congr 1
  funext a; apply Fin.ext
  match a with
  | ⟨0, _⟩ => show win1_0.index t 0 * 5000 + 1 * p.val = r.val; rw [e00, hr]; omega
  | ⟨1, _⟩ => show win1_0.index t 1 * 128 + 1 * k.val = k.val; rw [e01]; omega

/-- Window 1's block at point `t` is the same rows of the factor column. -/
theorem iblk1_1_apply (c : Dev nD) (t : Fin cfg1.N) (p : Fin 5000) (r : Fin 100000) (hr : r.val = 5000 * t.val + p.val) :
    (iblk1 V c 1 t : FVec Ideal S5000x1 .f32) (ix2 p (0 : Fin 1)) = (V c main_v21 : S100000x1.Idx → EReal) (ix2 r (0 : Fin 1)) := by
  obtain ⟨-, -, e10, e11, -⟩ := idx1 t
  unfold iblk1
  rw [View.read_apply]
  show V c main_v21 _ = V c main_v21 _
  congr 1
  funext a; apply Fin.ext
  match a with
  | ⟨0, _⟩ => show win1_1.index t 0 * 5000 + 1 * p.val = r.val; rw [e10, hr]; omega
  | ⟨1, _⟩ => show win1_1.index t 1 * 1 + 1 * 0 = 0; rw [e11]

/-- Window 2's block at every point is the one bias row. -/
theorem iblk1_2_apply (c : Dev nD) (t : Fin cfg1.N) (k : Fin 128) :
    (iblk1 V c 2 t : FVec Ideal S1x128 .f32) (ix2 (0 : Fin 1) k) = (V c main_v54 : S1x128.Idx → EReal) (ix2 (0 : Fin 1) k) := by
  obtain ⟨-, -, -, -, e20, e21, -⟩ := idx1 t
  unfold iblk1
  rw [View.read_apply]
  show V c main_v54 _ = V c main_v54 _
  congr 1
  funext a; apply Fin.ext
  match a with
  | ⟨0, _⟩ => show win1_2.index t 0 * 1 + 1 * 0 = 0; rw [e20]
  | ⟨1, _⟩ => show win1_2.index t 1 * 128 + 1 * k.val = k.val; rw [e21]; omega

/-- Window 3's block at every point is the whole matrix. -/
theorem iblk1_3_apply (c : Dev nD) (t : Fin cfg1.N) (k : Fin 128) (q : Fin 64) :
    (iblk1 V c 3 t : FVec Ideal S128x64 .f32) (ix2 k q) = (V c main_arg4 : S128x64.Idx → EReal) (ix2 k q) := by
  obtain ⟨-, -, -, -, -, -, e30, e31, -⟩ := idx1 t
  unfold iblk1
  rw [View.read_apply]
  show V c main_arg4 _ = V c main_arg4 _
  congr 1
  funext a; apply Fin.ext
  match a with
  | ⟨0, _⟩ => show win1_3.index t 0 * 128 + 1 * k.val = k.val; rw [e30]; omega
  | ⟨1, _⟩ => show win1_3.index t 1 * 64 + 1 * q.val = q.val; rw [e31]; omega

/-- What point `t` writes back is block `t` of the fused product. -/
theorem flushed1 (c : Dev nD) (t : Fin cfg1.N) :
    (dat1 V c).flushed 4 t = ((cfg1.win 4).blk t).view.read (Elt Ideal) (fused64 (V c main_v53) (V c main_v21) (V c main_v54) (V c main_arg4)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S1x128) hz, View.ld_unit_zero (S := S128x64) hz]
  obtain ⟨e00, e01, e10, e11, e20, e21, e30, e31, e40, e41⟩ := idx1 t
  funext j
  have hp : (j 0).val < 5000 := (j 0).isLt
  have hq : (j 1).val < 64 := (j 1).isLt
  have hx : (cfg1.win 4).xinj (grid1.coords t) j = ix2 (⟨(j 0).val, hp⟩ : Fin 5000) (⟨(j 1).val, hq⟩ : Fin 64) :=
    funext fun a => Fin.ext (by
      match a with
      | ⟨0, _⟩ => rfl
      | ⟨1, _⟩ => rfl)
  show k1_pay1 (iblk1 V c 0 t) (iblk1 V c 1 t) (iblk1 V c 2 t) (iblk1 V c 3 t) ((cfg1.win 4).xinj (grid1.coords t) j)
    = fused64 (V c main_v53) (V c main_v21) (V c main_v54) (V c main_arg4) (((cfg1.win 4).blk t).view.emb j)
  refine (congrArg (k1_pay1 (iblk1 V c 0 t) (iblk1 V c 1 t) (iblk1 V c 2 t) (iblk1 V c 3 t)) hx).trans ((pay1_apply _ _ _ _ _ _).trans ?_)
  have k0 : ((((cfg1.win 4).blk t).view.emb j) 0).val = 5000 * t.val + (j 0).val := by
    show win1_4.index t 0 * 5000 + 1 * (j 0).val = _; rw [e40]; omega
  have k1 : ((((cfg1.win 4).blk t).view.emb j) 1).val = (j 1).val := by
    show win1_4.index t 1 * 64 + 1 * (j 1).val = _; rw [e41]; omega
  unfold fused64
  refine Finset.sum_congr rfl fun k _ => ?_
  refine congrArg₂ (· * ·) (congrArg (fun u => max u (Ideal.ofBits .f32 0x00000000#32)) ?_) ?_
  · exact congrArg₂ (· + ·)
      (congrArg₂ (· * ·) (iblk1_0_apply V c t _ k _ (by show _ = 5000 * t.val + (j 0).val; exact k0))
        (iblk1_1_apply V c t _ _ (by show _ = 5000 * t.val + (j 0).val; exact k0)))
      (iblk1_2_apply V c t k)
  · refine (iblk1_3_apply V c t k _).trans ?_
    exact congrArg (fun q : Fin 64 => (V c main_arg4 : S128x64.Idx → EReal) (ix2 k q)) (Fin.ext k1.symm)

/-- An index of the result is in point `t`'s block iff each coordinate is in the block's range on its axis. -/
theorem mem_blk1 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v55).slice (win1_4.rect t)).set ↔ _
  rw [View.set_slice_whole, Rect.mem_set_unit]
  exact Iff.rfl

/-- Row `r` of the result is in the block of point `r / 5000`. -/
theorem cover1 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : grid1.N = 20 := N_1
  have ht : (i 0).val / 5000 < cfg1.N := by show _ < grid1.N; omega
  refine ⟨⟨(i 0).val / 5000, ht⟩, flush1_4 _, ?_⟩
  rw [mem_blk1]
  obtain ⟨-, -, -, -, -, -, -, -, e40, e41⟩ := idx1 ⟨(i 0).val / 5000, ht⟩
  intro a
  match a with
  | ⟨0, _⟩ =>
    show win1_4.index ⟨(i 0).val / 5000, ht⟩ 0 * 5000 ≤ (i 0).val ∧ (i 0).val < win1_4.index ⟨(i 0).val / 5000, ht⟩ 0 * 5000 + 5000
    rw [e40]; show (i 0).val / 5000 * 5000 ≤ (i 0).val ∧ (i 0).val < (i 0).val / 5000 * 5000 + 5000; omega
  | ⟨1, _⟩ =>
    show win1_4.index ⟨(i 0).val / 5000, ht⟩ 1 * 64 ≤ (i 1).val ∧ (i 1).val < win1_4.index ⟨(i 0).val / 5000, ht⟩ 1 * 64 + 64
    rw [e41]; omega

/-- The result array after the region's 20 write-backs. -/
theorem final1 (c : Dev nD) : (dat1 V c).arrAt 4 cfg1.N = fused64 (V c main_v53) (V c main_v21) (V c main_v54) (V c main_arg4) :=
  (dat1 V c).arrAt_eq_of_cover 4 _ (fun t _ => flushed1 V c t) cover1

end

end Cert.KernelIdeal.Tiles1

end
-- ==== Proof.Affine2.lean ====
/-
  The last tiled region: each of its 20 row blocks takes 5000 rows of the second layer's raw node sums, multiplies every
  row by that row's entry of the inverse-degree column and adds the bias row. Block `t` of every row-tiled window is
  rows `5000 t … 5000 t + 4999`, the bias window is the one whole row at every point, and the 20 output blocks tile
  the result. So the result array ends holding, at `(i, j)`, `raw (i, j) · d (i, 0) + b (0, j)` of the arrays the
  region finds at its entry.
-/
import proofs.«113165_j85074712199280_2_alg».proof.Proof.Gen.KernelIdeal.Frame
import proofs.«113165_j85074712199280_2_alg».proof.Proof.LibColumn
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen

theorem hz : (![0, 0] : Fin 2 → Nat) = fun _ => 0 := funext fun a => by fin_cases a <;> rfl

/-- Every row scaled by its own factor, then shifted by the bias row: 64 columns. -/
def scaleShift64 (raw : S100000x64.Idx → EReal) (d : S100000x1.Idx → EReal) (b : S1x64.Idx → EReal) : S100000x64.Idx → EReal :=
  fun i => raw i * d (ix2 (⟨(i 0).val, (i 0).isLt⟩ : Fin 100000) (0 : Fin 1)) + b (ix2 (0 : Fin 1) (⟨(i 1).val, (i 1).isLt⟩ : Fin 64))

/-- One entry of the tile's stored value: the block's entry times its row's factor plus its column's bias. -/
theorem pay2_apply (x0 : FVec Ideal S5000x64 .f32) (x1 : FVec Ideal S5000x1 .f32) (x2 : FVec Ideal S1x64 .f32) (p : Fin 5000) (q : Fin 64) :
    k2_pay1 x0 x1 x2 (ix2 p q) = x0 (ix2 p q) * x1 (ix2 p (0 : Fin 1)) + x2 (ix2 (0 : Fin 1) q) := by
  unfold k2_pay1
  simp only [shapeCast_self]
  refine (addf_apply _ _ _).trans ?_
  exact congrArg₂ (· + ·) ((mulf_apply _ _ _).trans (congrArg (x0 (ix2 p q) * ·) (ColumnLayout.broadcastTo_a1_ab_apply x1 _ p q)))
    (broadcastTo_1b_ab_apply x2 _ p q)

section
variable (V : (c : Dev nD) → (b : Ref sig .tc) → Buf (Elt Ideal) ((c : Thread nD τ).loc b))

/-- The printed index maps over the grid: the three row-tiled windows sit at row block `t`, column block 0; the bias
    window stays at its one block. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Window 0's block at point `t` is rows `5000 t … 5000 t + 4999` of its array. -/
theorem iblk2_0_apply (c : Dev nD) (t : Fin cfg2.N) (p : Fin 5000) (q : Fin 64) (k : S100000x64.Idx)
    (hk0 : (k 0).val = 5000 * t.val + p.val) (hk1 : (k 1).val = q.val) :
    (iblk2 V c 0 t : FVec Ideal S5000x64 .f32) (ix2 p q) = (V c main_v85 : S100000x64.Idx → EReal) k := by
  obtain ⟨e00, e01, -⟩ := idx2 t
  unfold iblk2
  rw [View.read_apply]
  show V c main_v85 _ = V c main_v85 _
  congr 1
  funext a; apply Fin.ext
  match a with
  | ⟨0, _⟩ => show win2_0.index t 0 * 5000 + 1 * p.val = (k 0).val; rw [e00, hk0]; omega
  | ⟨1, _⟩ => show win2_0.index t 1 * 64 + 1 * q.val = (k 1).val; rw [e01, hk1]; omega

/-- Window 1's block at point `t` is the same rows of the factor column. -/
theorem iblk2_1_apply (c : Dev nD) (t : Fin cfg2.N) (p : Fin 5000) (r : Fin 100000) (hr : r.val = 5000 * t.val + p.val) :
    (iblk2 V c 1 t : FVec Ideal S5000x1 .f32) (ix2 p (0 : Fin 1)) = (V c main_v21 : S100000x1.Idx → EReal) (ix2 r (0 : Fin 1)) := by
  obtain ⟨-, -, e10, e11, -⟩ := idx2 t
  unfold iblk2
  rw [View.read_apply]
  show V c main_v21 _ = V c main_v21 _
  congr 1
  funext a; apply Fin.ext
  match a with
  | ⟨0, _⟩ => show win2_1.index t 0 * 5000 + 1 * p.val = r.val; rw [e10, hr]; omega
  | ⟨1, _⟩ => show win2_1.index t 1 * 1 + 1 * 0 = 0; rw [e11]

/-- Window 2's block at every point is the one bias row. -/
theorem iblk2_2_apply (c : Dev nD) (t : Fin cfg2.N) (q : Fin 64) (s : Fin 64) (hs : s.val = q.val) :
    (iblk2 V c 2 t : FVec Ideal S1x64 .f32) (ix2 (0 : Fin 1) q) = (V c main_v86 : S1x64.Idx → EReal) (ix2 (0 : Fin 1) s) := by
  obtain ⟨-, -, -, -, e20, e21, -⟩ := idx2 t
  unfold iblk2
  rw [View.read_apply]
  show V c main_v86 _ = V c main_v86 _
  congr 1
  funext a; apply Fin.ext
  match a with
  | ⟨0, _⟩ => show win2_2.index t 0 * 1 + 1 * 0 = 0; rw [e20]
  | ⟨1, _⟩ => show win2_2.index t 1 * 64 + 1 * q.val = s.val; rw [e21, hs]; omega

/-- What point `t` writes back is block `t` of the scaled and shifted array. -/
theorem flushed2 (c : Dev nD) (t : Fin cfg2.N) :
    (dat2 V c).flushed 3 t = ((cfg2.win 3).blk t).view.read (Elt Ideal) (scaleShift64 (V c main_v85) (V c main_v21) (V c main_v86)) := by
  show (cfg2.win 3).cut (grid2.coords t) ((dat2 V c).after 3 t) = _
  rw [after2_3]
  unfold out2_3
  rw [View.canon_unit_zero hz]
  simp only [View.ld_unit_zero (S := S5000x64) hz, View.ld_unit_zero (S := S5000x1) hz, View.ld_unit_zero (S := S1x64) hz]
  obtain ⟨e00, e01, e10, e11, e20, e21, e30, e31⟩ := idx2 t
  funext j
  have hp : (j 0).val < 5000 := (j 0).isLt
  have hq : (j 1).val < 64 := (j 1).isLt
  have hx : (cfg2.win 3).xinj (grid2.coords t) j = ix2 (⟨(j 0).val, hp⟩ : Fin 5000) (⟨(j 1).val, hq⟩ : Fin 64) :=
    funext fun a => Fin.ext (by
      match a with
      | ⟨0, _⟩ => rfl
      | ⟨1, _⟩ => rfl)
  show k2_pay1 (iblk2 V c 0 t) (iblk2 V c 1 t) (iblk2 V c 2 t) ((cfg2.win 3).xinj (grid2.coords t) j)
    = scaleShift64 (V c main_v85) (V c main_v21) (V c main_v86) (((cfg2.win 3).blk t).view.emb j)
  refine (congrArg (k2_pay1 (iblk2 V c 0 t) (iblk2 V c 1 t) (iblk2 V c 2 t)) hx).trans ((pay2_apply _ _ _ _ _).trans ?_)
  have k0 : ((((cfg2.win 3).blk t).view.emb j) 0).val = 5000 * t.val + (j 0).val := by
    show win2_3.index t 0 * 5000 + 1 * (j 0).val = _; rw [e30]; omega
  have k1 : ((((cfg2.win 3).blk t).view.emb j) 1).val = (j 1).val := by
    show win2_3.index t 1 * 64 + 1 * (j 1).val = _; rw [e31]; omega
  unfold scaleShift64
  exact congrArg₂ (· + ·)
    (congrArg₂ (· * ·) (iblk2_0_apply V c t _ _ _ k0 k1) (iblk2_1_apply V c t _ _ (by show _ = 5000 * t.val + (j 0).val; exact k0)))
    (iblk2_2_apply V c t _ _ (by show _ = (j 1).val; exact k1))

/-- An index of the result is in point `t`'s block iff each coordinate is in the block's range on its axis. -/
theorem mem_blk2 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v87).slice (win2_3.rect t)).set ↔ _
  rw [View.set_slice_whole, Rect.mem_set_unit]
  exact Iff.rfl

/-- Row `r` of the result is in the block of point `r / 5000`. -/
theorem cover2 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : grid2.N = 20 := N_2
  have ht : (i 0).val / 5000 < cfg2.N := by show _ < grid2.N; omega
  refine ⟨⟨(i 0).val / 5000, ht⟩, flush2_3 _, ?_⟩
  rw [mem_blk2]
  obtain ⟨-, -, -, -, -, -, e30, e31⟩ := idx2 ⟨(i 0).val / 5000, ht⟩
  intro a
  match a with
  | ⟨0, _⟩ =>
    show win2_3.index ⟨(i 0).val / 5000, ht⟩ 0 * 5000 ≤ (i 0).val ∧ (i 0).val < win2_3.index ⟨(i 0).val / 5000, ht⟩ 0 * 5000 + 5000
    rw [e30]; show (i 0).val / 5000 * 5000 ≤ (i 0).val ∧ (i 0).val < (i 0).val / 5000 * 5000 + 5000; omega
  | ⟨1, _⟩ =>
    show win2_3.index ⟨(i 0).val / 5000, ht⟩ 1 * 64 ≤ (i 1).val ∧ (i 1).val < win2_3.index ⟨(i 0).val / 5000, ht⟩ 1 * 64 + 64
    rw [e31]; omega

/-- The result array after the region's 20 write-backs. -/
theorem final2 (c : Dev nD) : (dat2 V c).arrAt 3 cfg2.N = scaleShift64 (V c main_v85) (V c main_v21) (V c main_v86) :=
  (dat2 V c).arrAt_eq_of_cover 3 _ (fun t _ => flushed2 V c t) cover2

end

end Cert.KernelIdeal.Tiles

end
-- ==== Proof.KerSpec.lean ====
/-
  The kernel program's value, stage by stage, over the extended reals.

  The kernel computes both degree vectors and their guarded reciprocals once, and keeps the reciprocals as one-column
  matrices. A gather–add round takes the projected features `P` (stored in the half-width format, whose widening is
  the identity on the extended reals): gather `P`'s rows at the incidences' node numbers and add them into the
  incidences' hyperedges; gather those sums' rows at the incidences' hyperedge numbers and, separately, gather the
  hyperedges' reciprocal sizes at the same numbers, spread that column across the features and multiply; add the
  products into the incidences' nodes. The tiled regions supply the projection `x · W1`, the fused
  `max (raw · d⁻¹ + b1) 0 · W2` and the final `raw · d⁻¹ + b2`; the whole program is their composition with two rounds.
-/
import proofs.«113165_j85074712199280_2_alg».proof.Proof.Project0
import proofs.«113165_j85074712199280_2_alg».proof.Proof.Fused1
import proofs.«113165_j85074712199280_2_alg».proof.Proof.Affine2
import Idealize.ShloMosaic.PureOps.Ideal

set_option maxRecDepth 16384

noncomputable section

open Idealize.ShloMosaic Idealize.ShloMosaic.TcCoe Idealize.SL.Sem Idealize.ShloMosaic.ValueIdx
open Idealize.ShloMosaic.Pipeline (Dat)

namespace Cert.Hyper.Ker

open Cert.KernelIdeal Cert.KernelIdeal.Gen

/-- One 32-bit word per incidence. -/
abbrev Ix : Type := IVec S1600000 32

/-- The incidences' node numbers: row 0 of the index pair. -/
def nodeIx (a1 : IVec S2x1600000 32) : Ix :=
  shapeCast S1600000 (extractStridedSlice S1x1600000 ![0, 0] a1 slices_S2x1600000_S1x1600000_0_0) shapeCasts_S1x1600000_S1600000

/-- The incidences' hyperedge numbers: row 1 of the index pair. -/
def edgeIx (a1 : IVec S2x1600000 32) : Ix :=
  shapeCast S1600000 (extractStridedSlice S1x1600000 ![1, 0] a1 slices_S2x1600000_S1x1600000_1_0) shapeCasts_S1x1600000_S1600000

/-- A list of words as a one-column index array. -/
def col (z : Ix) : IVec S1600000x1 32 := broadcastInDim S1600000x1 ![0] bcast_S1600000_S1600000x1_0 z

/-- A negative word counted from the end of the 100000 rows. -/
def wrap (z : Ix) : Ix :=
  select (cmpi .slt z (broadcastInDim S1600000 ![] bcast_S_S1600000 (constantI S_ 32 0#32)))
    (addi z (broadcastInDim S1600000 ![] bcast_S_S1600000 (constantI S_ 32 100000#32))) z

/-- How many incidences name each of the 100000 rows: ones added in at the words. -/
def deg (z : Ix) : FVec Ideal S100000 .f32 :=
  Host.scatterAdd (F := Ideal) scatter_S100000_S1600000x1_S1600000_n_0_0_1
    (broadcastInDim S100000 ![] bcast_S_S100000 (constant (F := Ideal) S_ .f32 0x00000000#32)) (col z)
    (broadcastInDim S1600000 ![] bcast_S_S1600000 (constant (F := Ideal) S_ .f32 0x3F800000#32))

/-- `1 / d` where `d > 0`, zero elsewhere. -/
def inv (d : FVec Ideal S100000 .f32) : FVec Ideal S100000 .f32 :=
  select (cmpf (F := Ideal) .ogt d (broadcastInDim S100000 ![] bcast_S_S100000 (constant (F := Ideal) S_ .f32 0x00000000#32)))
    (Host.divf (F := Ideal) (broadcastInDim S100000 ![] bcast_S_S100000 (constant (F := Ideal) S_ .f32 0x3F800000#32)) d)
    (broadcastInDim S100000 ![] bcast_S_S100000 (id (constant (F := Ideal) S_ .f32 0x00000000#32)))

/-- A vector over the rows as a one-column matrix. -/
def asCol (v : FVec Ideal S100000 .f32) : FVec Ideal S100000x1 .f32 := shapeCast S100000x1 v shapeCasts_S100000_S100000x1

/-- Rows added into the rows the words name, from zero. -/
def seg128 (z : Ix) (u : FVec Ideal S1600000x128 .f32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32)) (col z) u
def seg64 (z : Ix) (u : FVec Ideal S1600000x64 .f32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32)) (col z) u

/-- The rows the words name, one per incidence. -/
def take128 {φ : FTy} (a : FVec Ideal S100000x128 φ) (z : Ix) : FVec Ideal S1600000x128 φ :=
  Host.gather gather_S100000x128_S1600000x1_S1600000x128_1_0_n_n_0_1_1128 a (col (wrap z))
def take64 {φ : FTy} (a : FVec Ideal S100000x64 φ) (z : Ix) : FVec Ideal S1600000x64 φ :=
  Host.gather gather_S100000x64_S1600000x1_S1600000x64_1_0_n_n_0_1_164 a (col (wrap z))

/-- The entries of a one-column matrix the words name, one per incidence. -/
def takeCol (v : FVec Ideal S100000x1 .f32) (z : Ix) : FVec Ideal S1600000x1 .f32 :=
  Host.gather gather_S100000x1_S1600000x1_S1600000x1_1_0_n_n_0_1_11 v (col (wrap z))

/-- A per-incidence column repeated across the features. -/
def spread128 (u : FVec Ideal S1600000x1 .f32) : FVec Ideal S1600000x128 .f32 :=
  broadcastInDim S1600000x128 ![0, 1] bcast_S1600000x1_S1600000x128_0_1 u
def spread64 (u : FVec Ideal S1600000x1 .f32) : FVec Ideal S1600000x64 .f32 :=
  broadcastInDim S1600000x64 ![0, 1] bcast_S1600000x1_S1600000x64_0_1 u

/-- Nodes to hyperedges to nodes, the hyperedges' reciprocal sizes applied per incidence. -/
def round128 (nI eI : Ix) (bcol : FVec Ideal S100000x1 .f32) (P : FVec Ideal S100000x128 .bf16) : FVec Ideal S100000x128 .f32 :=
  seg128 nI (mulf (take128 (seg128 eI (extf .f32 (take128 P nI) bitsLt_bf16_f32)) eI) (spread128 (takeCol bcol eI)))
def round64 (nI eI : Ix) (bcol : FVec Ideal S100000x1 .f32) (P : FVec Ideal S100000x64 .bf16) : FVec Ideal S100000x64 .f32 :=
  seg64 nI (mulf (take64 (seg64 eI (extf .f32 (take64 P nI) bitsLt_bf16_f32)) eI) (spread64 (takeCol bcol eI)))

/-- The kernel program's result. -/
def out (a0 : FVec Ideal S100000x128 .f32) (a1 : IVec S2x1600000 32) (a2 : FVec Ideal S128x128 .f32) (a3 : FVec Ideal S128 .f32)
    (a4 : FVec Ideal S128x64 .f32) (a5 : FVec Ideal S64 .f32) : FVec Ideal S100000x64 .f32 :=
  Tiles.scaleShift64
    (round64 (nodeIx a1) (edgeIx a1) (asCol (inv (deg (edgeIx a1))))
      (Tiles1.fused64 (round128 (nodeIx a1) (edgeIx a1) (asCol (inv (deg (edgeIx a1)))) (Tiles0.proj128 a0 a2))
        (asCol (inv (deg (nodeIx a1)))) (shapeCast S1x128 a3 shapeCasts_S128_S1x128) a4))
    (asCol (inv (deg (nodeIx a1)))) (shapeCast S1x64 a5 shapeCasts_S64_S1x64)

end Cert.Hyper.Ker

end
-- ==== Proof.Fold.lean ====
/-
  The contents of the kernel program's buffers at each boundary between its host stretches and its tiled regions, read
  back to the launch memory.

  The run's last boundary is a fold from the launch memory: a host stretch replaces the buffers its operations write by
  those operations' results and leaves every other buffer alone; a tiled region replaces each of its result arrays by
  the array after all 20 write-backs and leaves every other buffer — its input arrays among them — alone. Followed one
  boundary at a time: the two index rows, the two degree vectors and their guarded reciprocals (each `where` is three
  operations of a called function), the reciprocals as columns; the projection; the first gather–add round and the bias
  as a row; the fused product; the second round and the second bias row; and the final scale and shift. Each buffer a
  later stage reads is named here at the boundary where it is read, and the result buffer ends at the kernel program's
  value of the six argument arrays.
-/
import proofs.«113165_j85074712199280_2_alg».proof.Proof.KerSpec
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Fold

open Cert.KernelIdeal Cert.KernelIdeal.Gen Cert.Hyper

variable (m : (ℓ : Loc nD τ sig) → Buf (Elt Ideal) ℓ) (ρ : Dev nD → PrngReg)

/-! ## The launch contents of the arguments, and the stages' values -/

def A0 (c : Dev nD) : FVec Ideal S100000x128 .f32 := m ((c.tc : Thread nD τ).loc main_arg0)
def A1 (c : Dev nD) : IVec S2x1600000 32 := m ((c.tc : Thread nD τ).loc main_arg1)
def A2 (c : Dev nD) : FVec Ideal S128x128 .f32 := m ((c.tc : Thread nD τ).loc main_arg2)
def A3 (c : Dev nD) : FVec Ideal S128 .f32 := m ((c.tc : Thread nD τ).loc main_arg3)
def A4 (c : Dev nD) : FVec Ideal S128x64 .f32 := m ((c.tc : Thread nD τ).loc main_arg4)
def A5 (c : Dev nD) : FVec Ideal S64 .f32 := m ((c.tc : Thread nD τ).loc main_arg5)
/-- The incidences' node and hyperedge numbers. -/
def nI (c : Dev nD) : Ker.Ix := Ker.nodeIx (A1 m c)
def eI (c : Dev nD) : Ker.Ix := Ker.edgeIx (A1 m c)
/-- The reciprocal degrees and the reciprocal hyperedge sizes, as columns. -/
def dcol (c : Dev nD) : FVec Ideal S100000x1 .f32 := Ker.asCol (Ker.inv (Ker.deg (nI m c)))
def bcol (c : Dev nD) : FVec Ideal S100000x1 .f32 := Ker.asCol (Ker.inv (Ker.deg (eI m c)))
/-- The first projection, the first round's raw node sums, the bias row, the fused product, the second round's raw
    node sums, the second bias row. -/
def P0 (c : Dev nD) : FVec Ideal S100000x128 .bf16 := Tiles0.proj128 (A0 m c) (A2 m c)
def N1 (c : Dev nD) : FVec Ideal S100000x128 .f32 := Ker.round128 (nI m c) (eI m c) (bcol m c) (P0 m c)
def row3 (c : Dev nD) : FVec Ideal S1x128 .f32 := shapeCast S1x128 (A3 m c) shapeCasts_S128_S1x128
def P1 (c : Dev nD) : FVec Ideal S100000x64 .bf16 := Tiles1.fused64 (N1 m c) (dcol m c) (row3 m c) (A4 m c)
def N2 (c : Dev nD) : FVec Ideal S100000x64 .f32 := Ker.round64 (nI m c) (eI m c) (bcol m c) (P1 m c)
def row5 (c : Dev nD) : FVec Ideal S1x64 .f32 := shapeCast S1x64 (A5 m c) shapeCasts_S64_S1x64

/-! ## Boundary by boundary -/

theorem s1_v1 (c : Dev nD) : W1 m ρ c (Proc.devRef .tc main_v1) = nI m c := by
  unfold nI A1
  after_results_simp <;> rfl

theorem s1_v3 (c : Dev nD) : W1 m ρ c (Proc.devRef .tc main_v3) = eI m c := by
  unfold eI A1
  after_results_simp <;> rfl

theorem s1_arg0 (c : Dev nD) : W1 m ρ c (Proc.devRef .tc main_arg0) = A0 m c := by
  unfold A0
  after_results_simp <;> rfl

theorem s1_arg2 (c : Dev nD) : W1 m ρ c (Proc.devRef .tc main_arg2) = A2 m c := by
  unfold A2
  after_results_simp <;> rfl

theorem s1_arg3 (c : Dev nD) : W1 m ρ c (Proc.devRef .tc main_arg3) = A3 m c := by
  unfold A3
  after_results_simp <;> rfl

theorem s1_arg4 (c : Dev nD) : W1 m ρ c (Proc.devRef .tc main_arg4) = A4 m c := by
  unfold A4
  after_results_simp <;> rfl

theorem s1_arg5 (c : Dev nD) : W1 m ρ c (Proc.devRef .tc main_arg5) = A5 m c := by
  unfold A5
  after_results_simp <;> rfl

theorem s1_v12 (c : Dev nD) : W1 m ρ c (Proc.devRef .tc main_v12) = cmpf (F := Ideal) .ogt (Ker.deg (nI m c)) (broadcastInDim S100000 ![] bcast_S_S100000 (constant (F := Ideal) S_ .f32 0x00000000#32)) := by
  unfold Ker.deg Ker.col nI A1
  after_results_simp <;> rfl

theorem s1_v14 (c : Dev nD) : W1 m ρ c (Proc.devRef .tc main_v14) = Host.divf (F := Ideal) (broadcastInDim S100000 ![] bcast_S_S100000 (constant (F := Ideal) S_ .f32 0x3F800000#32)) (Ker.deg (nI m c)) := by
  unfold Ker.deg Ker.col nI A1
  after_results_simp <;> rfl

theorem s1_cst_4 (c : Dev nD) : W1 m ρ c (Proc.devRef .tc main_cst_4) = constant (F := Ideal) S_ .f32 0x00000000#32 := by
  after_results_simp <;> rfl

theorem s1_v10 (c : Dev nD) : W1 m ρ c (Proc.devRef .tc main_v10) = Ker.deg (eI m c) := by
  unfold Ker.deg Ker.col eI A1
  after_results_simp <;> rfl

/-- The guarded reciprocal of the node degrees: the first `where`. -/
theorem s2_v15 (c : Dev nD) : W2 m ρ c (Proc.devRef .tc main_v15) = Ker.inv (Ker.deg (nI m c)) := by
  have h : W2 m ρ c (Proc.devRef .tc main_v15) = select (W1 m ρ c (Proc.devRef .tc main_v12)) (W1 m ρ c (Proc.devRef .tc main_v14)) (broadcastInDim S100000 ![] bcast_S_S100000 (id (W1 m ρ c (Proc.devRef .tc main_cst_4)))) := by
    show StableHlo.after hostOps0_1 (W1 m ρ c) (Proc.devRef .tc main_v15) = _
    generalize W1 m ρ c = V
    after_results_simp <;> rfl
  rw [h, s1_v12, s1_v14, s1_cst_4]
  try rfl

theorem s2_v1 (c : Dev nD) : W2 m ρ c (Proc.devRef .tc main_v1) = nI m c := by
  have h : W2 m ρ c (Proc.devRef .tc main_v1) = W1 m ρ c (Proc.devRef .tc main_v1) := by
    show StableHlo.after hostOps0_1 (W1 m ρ c) (Proc.devRef .tc main_v1) = _
    generalize W1 m ρ c = V
    after_results_simp <;> rfl
  rw [h]; exact s1_v1 m ρ c

theorem s2_v3 (c : Dev nD) : W2 m ρ c (Proc.devRef .tc main_v3) = eI m c := by
  have h : W2 m ρ c (Proc.devRef .tc main_v3) = W1 m ρ c (Proc.devRef .tc main_v3) := by
    show StableHlo.after hostOps0_1 (W1 m ρ c) (Proc.devRef .tc main_v3) = _
    generalize W1 m ρ c = V
    after_results_simp <;> rfl
  rw [h]; exact s1_v3 m ρ c

theorem s2_v10 (c : Dev nD) : W2 m ρ c (Proc.devRef .tc main_v10) = Ker.deg (eI m c) := by
  have h : W2 m ρ c (Proc.devRef .tc main_v10) = W1 m ρ c (Proc.devRef .tc main_v10) := by
    show StableHlo.after hostOps0_1 (W1 m ρ c) (Proc.devRef .tc main_v10) = _
    generalize W1 m ρ c = V
    after_results_simp <;> rfl
  rw [h]; exact s1_v10 m ρ c

theorem s2_arg0 (c : Dev nD) : W2 m ρ c (Proc.devRef .tc main_arg0) = A0 m c := by
  have h : W2 m ρ c (Proc.devRef .tc main_arg0) = W1 m ρ c (Proc.devRef .tc main_arg0) := by
    show StableHlo.after hostOps0_1 (W1 m ρ c) (Proc.devRef .tc main_arg0) = _
    generalize W1 m ρ c = V
    after_results_simp <;> rfl
  rw [h]; exact s1_arg0 m ρ c

theorem s2_arg2 (c : Dev nD) : W2 m ρ c (Proc.devRef .tc main_arg2) = A2 m c := by
  have h : W2 m ρ c (Proc.devRef .tc main_arg2) = W1 m ρ c (Proc.devRef .tc main_arg2) := by
    show StableHlo.after hostOps0_1 (W1 m ρ c) (Proc.devRef .tc main_arg2) = _
    generalize W1 m ρ c = V
    after_results_simp <;> rfl
  rw [h]; exact s1_arg2 m ρ c

theorem s2_arg3 (c : Dev nD) : W2 m ρ c (Proc.devRef .tc main_arg3) = A3 m c := by
  have h : W2 m ρ c (Proc.devRef .tc main_arg3) = W1 m ρ c (Proc.devRef .tc main_arg3) := by
    show StableHlo.after hostOps0_1 (W1 m ρ c) (Proc.devRef .tc main_arg3) = _
    generalize W1 m ρ c = V
    after_results_simp <;> rfl
  rw [h]; exact s1_arg3 m ρ c

theorem s2_arg4 (c : Dev nD) : W2 m ρ c (Proc.devRef .tc main_arg4) = A4 m c := by
  have h : W2 m ρ c (Proc.devRef .tc main_arg4) = W1 m ρ c (Proc.devRef .tc main_arg4) := by
    show StableHlo.after hostOps0_1 (W1 m ρ c) (Proc.devRef .tc main_arg4) = _
    generalize W1 m ρ c = V
    after_results_simp <;> rfl
  rw [h]; exact s1_arg4 m ρ c

theorem s2_arg5 (c : Dev nD) : W2 m ρ c (Proc.devRef .tc main_arg5) = A5 m c := by
  have h : W2 m ρ c (Proc.devRef .tc main_arg5) = W1 m ρ c (Proc.devRef .tc main_arg5) := by
    show StableHlo.after hostOps0_1 (W1 m ρ c) (Proc.devRef .tc main_arg5) = _
    generalize W1 m ρ c = V
    after_results_simp <;> rfl
  rw [h]; exact s1_arg5 m ρ c

theorem s3_v17 (c : Dev nD) : W3 m ρ c (Proc.devRef .tc main_v17) = cmpf (F := Ideal) .ogt (Ker.deg (eI m c)) (broadcastInDim S100000 ![] bcast_S_S100000 (constant (F := Ideal) S_ .f32 0x00000000#32)) := by
  have h : W3 m ρ c (Proc.devRef .tc main_v17) = cmpf (F := Ideal) .ogt (W2 m ρ c (Proc.devRef .tc main_v10)) (broadcastInDim S100000 ![] bcast_S_S100000 (constant (F := Ideal) S_ .f32 0x00000000#32)) := by
    show StableHlo.after hostOps0_2 (W2 m ρ c) (Proc.devRef .tc main_v17) = _
    generalize W2 m ρ c = V
    after_results_simp <;> rfl
  rw [h, s2_v10]
  try rfl

theorem s3_v19 (c : Dev nD) : W3 m ρ c (Proc.devRef .tc main_v19) = Host.divf (F := Ideal) (broadcastInDim S100000 ![] bcast_S_S100000 (constant (F := Ideal) S_ .f32 0x3F800000#32)) (Ker.deg (eI m c)) := by
  have h : W3 m ρ c (Proc.devRef .tc main_v19) = Host.divf (F := Ideal) (broadcastInDim S100000 ![] bcast_S_S100000 (constant (F := Ideal) S_ .f32 0x3F800000#32)) (W2 m ρ c (Proc.devRef .tc main_v10)) := by
    show StableHlo.after hostOps0_2 (W2 m ρ c) (Proc.devRef .tc main_v19) = _
    generalize W2 m ρ c = V
    after_results_simp <;> rfl
  rw [h, s2_v10]
  try rfl

theorem s3_cst_7 (c : Dev nD) : W3 m ρ c (Proc.devRef .tc main_cst_7) = constant (F := Ideal) S_ .f32 0x00000000#32 := by
  have h : W3 m ρ c (Proc.devRef .tc main_cst_7) = constant (F := Ideal) S_ .f32 0x00000000#32 := by
    show StableHlo.after hostOps0_2 (W2 m ρ c) (Proc.devRef .tc main_cst_7) = _
    generalize W2 m ρ c = V
    after_results_simp <;> rfl
  rw [h]
  try rfl

theorem s3_v1 (c : Dev nD) : W3 m ρ c (Proc.devRef .tc main_v1) = nI m c := by
  have h : W3 m ρ c (Proc.devRef .tc main_v1) = W2 m ρ c (Proc.devRef .tc main_v1) := by
    show StableHlo.after hostOps0_2 (W2 m ρ c) (Proc.devRef .tc main_v1) = _
    generalize W2 m ρ c = V
    after_results_simp <;> rfl
  rw [h]; exact s2_v1 m ρ c

theorem s3_v3 (c : Dev nD) : W3 m ρ c (Proc.devRef .tc main_v3) = eI m c := by
  have h : W3 m ρ c (Proc.devRef .tc main_v3) = W2 m ρ c (Proc.devRef .tc main_v3) := by
    show StableHlo.after hostOps0_2 (W2 m ρ c) (Proc.devRef .tc main_v3) = _
    generalize W2 m ρ c = V
    after_results_simp <;> rfl
  rw [h]; exact s2_v3 m ρ c

theorem s3_v15 (c : Dev nD) : W3 m ρ c (Proc.devRef .tc main_v15) = Ker.inv (Ker.deg (nI m c)) := by
  have h : W3 m ρ c (Proc.devRef .tc main_v15) = W2 m ρ c (Proc.devRef .tc main_v15) := by
    show StableHlo.after hostOps0_2 (W2 m ρ c) (Proc.devRef .tc main_v15) = _
    generalize W2 m ρ c = V
    after_results_simp <;> rfl
  rw [h]; exact s2_v15 m ρ c

theorem s3_arg0 (c : Dev nD) : W3 m ρ c (Proc.devRef .tc main_arg0) = A0 m c := by
  have h : W3 m ρ c (Proc.devRef .tc main_arg0) = W2 m ρ c (Proc.devRef .tc main_arg0) := by
    show StableHlo.after hostOps0_2 (W2 m ρ c) (Proc.devRef .tc main_arg0) = _
    generalize W2 m ρ c = V
    after_results_simp <;> rfl
  rw [h]; exact s2_arg0 m ρ c

theorem s3_arg2 (c : Dev nD) : W3 m ρ c (Proc.devRef .tc main_arg2) = A2 m c := by
  have h : W3 m ρ c (Proc.devRef .tc main_arg2) = W2 m ρ c (Proc.devRef .tc main_arg2) := by
    show StableHlo.after hostOps0_2 (W2 m ρ c) (Proc.devRef .tc main_arg2) = _
    generalize W2 m ρ c = V
    after_results_simp <;> rfl
  rw [h]; exact s2_arg2 m ρ c

theorem s3_arg3 (c : Dev nD) : W3 m ρ c (Proc.devRef .tc main_arg3) = A3 m c := by
  have h : W3 m ρ c (Proc.devRef .tc main_arg3) = W2 m ρ c (Proc.devRef .tc main_arg3) := by
    show StableHlo.after hostOps0_2 (W2 m ρ c) (Proc.devRef .tc main_arg3) = _
    generalize W2 m ρ c = V
    after_results_simp <;> rfl
  rw [h]; exact s2_arg3 m ρ c

theorem s3_arg4 (c : Dev nD) : W3 m ρ c (Proc.devRef .tc main_arg4) = A4 m c := by
  have h : W3 m ρ c (Proc.devRef .tc main_arg4) = W2 m ρ c (Proc.devRef .tc main_arg4) := by
    show StableHlo.after hostOps0_2 (W2 m ρ c) (Proc.devRef .tc main_arg4) = _
    generalize W2 m ρ c = V
    after_results_simp <;> rfl
  rw [h]; exact s2_arg4 m ρ c

theorem s3_arg5 (c : Dev nD) : W3 m ρ c (Proc.devRef .tc main_arg5) = A5 m c := by
  have h : W3 m ρ c (Proc.devRef .tc main_arg5) = W2 m ρ c (Proc.devRef .tc main_arg5) := by
    show StableHlo.after hostOps0_2 (W2 m ρ c) (Proc.devRef .tc main_arg5) = _
    generalize W2 m ρ c = V
    after_results_simp <;> rfl
  rw [h]; exact s2_arg5 m ρ c

/-- The guarded reciprocal of the hyperedge sizes: the second `where`. -/
theorem s4_v20 (c : Dev nD) : W4 m ρ c (Proc.devRef .tc main_v20) = Ker.inv (Ker.deg (eI m c)) := by
  have h : W4 m ρ c (Proc.devRef .tc main_v20) = select (W3 m ρ c (Proc.devRef .tc main_v17)) (W3 m ρ c (Proc.devRef .tc main_v19)) (broadcastInDim S100000 ![] bcast_S_S100000 (id (W3 m ρ c (Proc.devRef .tc main_cst_7)))) := by
    show StableHlo.after hostOps0_3 (W3 m ρ c) (Proc.devRef .tc main_v20) = _
    generalize W3 m ρ c = V
    after_results_simp <;> rfl
  rw [h, s3_v17, s3_v19, s3_cst_7]
  try rfl

theorem s4_v1 (c : Dev nD) : W4 m ρ c (Proc.devRef .tc main_v1) = nI m c := by
  have h : W4 m ρ c (Proc.devRef .tc main_v1) = W3 m ρ c (Proc.devRef .tc main_v1) := by
    show StableHlo.after hostOps0_3 (W3 m ρ c) (Proc.devRef .tc main_v1) = _
    generalize W3 m ρ c = V
    after_results_simp <;> rfl
  rw [h]; exact s3_v1 m ρ c

theorem s4_v3 (c : Dev nD) : W4 m ρ c (Proc.devRef .tc main_v3) = eI m c := by
  have h : W4 m ρ c (Proc.devRef .tc main_v3) = W3 m ρ c (Proc.devRef .tc main_v3) := by
    show StableHlo.after hostOps0_3 (W3 m ρ c) (Proc.devRef .tc main_v3) = _
    generalize W3 m ρ c = V
    after_results_simp <;> rfl
  rw [h]; exact s3_v3 m ρ c

theorem s4_v15 (c : Dev nD) : W4 m ρ c (Proc.devRef .tc main_v15) = Ker.inv (Ker.deg (nI m c)) := by
  have h : W4 m ρ c (Proc.devRef .tc main_v15) = W3 m ρ c (Proc.devRef .tc main_v15) := by
    show StableHlo.after hostOps0_3 (W3 m ρ c) (Proc.devRef .tc main_v15) = _
    generalize W3 m ρ c = V
    after_results_simp <;> rfl
  rw [h]; exact s3_v15 m ρ c

theorem s4_arg0 (c : Dev nD) : W4 m ρ c (Proc.devRef .tc main_arg0) = A0 m c := by
  have h : W4 m ρ c (Proc.devRef .tc main_arg0) = W3 m ρ c (Proc.devRef .tc main_arg0) := by
    show StableHlo.after hostOps0_3 (W3 m ρ c) (Proc.devRef .tc main_arg0) = _
    generalize W3 m ρ c = V
    after_results_simp <;> rfl
  rw [h]; exact s3_arg0 m ρ c

theorem s4_arg2 (c : Dev nD) : W4 m ρ c (Proc.devRef .tc main_arg2) = A2 m c := by
  have h : W4 m ρ c (Proc.devRef .tc main_arg2) = W3 m ρ c (Proc.devRef .tc main_arg2) := by
    show StableHlo.after hostOps0_3 (W3 m ρ c) (Proc.devRef .tc main_arg2) = _
    generalize W3 m ρ c = V
    after_results_simp <;> rfl
  rw [h]; exact s3_arg2 m ρ c

theorem s4_arg3 (c : Dev nD) : W4 m ρ c (Proc.devRef .tc main_arg3) = A3 m c := by
  have h : W4 m ρ c (Proc.devRef .tc main_arg3) = W3 m ρ c (Proc.devRef .tc main_arg3) := by
    show StableHlo.after hostOps0_3 (W3 m ρ c) (Proc.devRef .tc main_arg3) = _
    generalize W3 m ρ c = V
    after_results_simp <;> rfl
  rw [h]; exact s3_arg3 m ρ c

theorem s4_arg4 (c : Dev nD) : W4 m ρ c (Proc.devRef .tc main_arg4) = A4 m c := by
  have h : W4 m ρ c (Proc.devRef .tc main_arg4) = W3 m ρ c (Proc.devRef .tc main_arg4) := by
    show StableHlo.after hostOps0_3 (W3 m ρ c) (Proc.devRef .tc main_arg4) = _
    generalize W3 m ρ c = V
    after_results_simp <;> rfl
  rw [h]; exact s3_arg4 m ρ c

theorem s4_arg5 (c : Dev nD) : W4 m ρ c (Proc.devRef .tc main_arg5) = A5 m c := by
  have h : W4 m ρ c (Proc.devRef .tc main_arg5) = W3 m ρ c (Proc.devRef .tc main_arg5) := by
    show StableHlo.after hostOps0_3 (W3 m ρ c) (Proc.devRef .tc main_arg5) = _
    generalize W3 m ρ c = V
    after_results_simp <;> rfl
  rw [h]; exact s3_arg5 m ρ c

/-- The reciprocal degrees as a column. -/
theorem at5_v21 (c : Dev nD) : W5 m ρ c (Proc.devRef .tc main_v21) = dcol m c := by
  have h : W5 m ρ c (Proc.devRef .tc main_v21) = shapeCast S100000x1 (W4 m ρ c (Proc.devRef .tc main_v15)) shapeCasts_S100000_S100000x1 := by
    show StableHlo.after hostOps0_4 (W4 m ρ c) (Proc.devRef .tc main_v21) = _
    generalize W4 m ρ c = V
    after_results_simp <;> rfl
  rw [h, s4_v15]
  try rfl

/-- The reciprocal sizes as a column. -/
theorem at5_v22 (c : Dev nD) : W5 m ρ c (Proc.devRef .tc main_v22) = bcol m c := by
  have h : W5 m ρ c (Proc.devRef .tc main_v22) = shapeCast S100000x1 (W4 m ρ c (Proc.devRef .tc main_v20)) shapeCasts_S100000_S100000x1 := by
    show StableHlo.after hostOps0_4 (W4 m ρ c) (Proc.devRef .tc main_v22) = _
    generalize W4 m ρ c = V
    after_results_simp <;> rfl
  rw [h, s4_v20]
  try rfl

theorem at5_v1 (c : Dev nD) : W5 m ρ c (Proc.devRef .tc main_v1) = nI m c := by
  have h : W5 m ρ c (Proc.devRef .tc main_v1) = W4 m ρ c (Proc.devRef .tc main_v1) := by
    show StableHlo.after hostOps0_4 (W4 m ρ c) (Proc.devRef .tc main_v1) = _
    generalize W4 m ρ c = V
    after_results_simp <;> rfl
  rw [h]; exact s4_v1 m ρ c

theorem at5_v3 (c : Dev nD) : W5 m ρ c (Proc.devRef .tc main_v3) = eI m c := by
  have h : W5 m ρ c (Proc.devRef .tc main_v3) = W4 m ρ c (Proc.devRef .tc main_v3) := by
    show StableHlo.after hostOps0_4 (W4 m ρ c) (Proc.devRef .tc main_v3) = _
    generalize W4 m ρ c = V
    after_results_simp <;> rfl
  rw [h]; exact s4_v3 m ρ c

theorem at5_arg0 (c : Dev nD) : W5 m ρ c (Proc.devRef .tc main_arg0) = A0 m c := by
  have h : W5 m ρ c (Proc.devRef .tc main_arg0) = W4 m ρ c (Proc.devRef .tc main_arg0) := by
    show StableHlo.after hostOps0_4 (W4 m ρ c) (Proc.devRef .tc main_arg0) = _
    generalize W4 m ρ c = V
    after_results_simp <;> rfl
  rw [h]; exact s4_arg0 m ρ c

theorem at5_arg2 (c : Dev nD) : W5 m ρ c (Proc.devRef .tc main_arg2) = A2 m c := by
  have h : W5 m ρ c (Proc.devRef .tc main_arg2) = W4 m ρ c (Proc.devRef .tc main_arg2) := by
    show StableHlo.after hostOps0_4 (W4 m ρ c) (Proc.devRef .tc main_arg2) = _
    generalize W4 m ρ c = V
    after_results_simp <;> rfl
  rw [h]; exact s4_arg2 m ρ c

theorem at5_arg3 (c : Dev nD) : W5 m ρ c (Proc.devRef .tc main_arg3) = A3 m c := by
  have h : W5 m ρ c (Proc.devRef .tc main_arg3) = W4 m ρ c (Proc.devRef .tc main_arg3) := by
    show StableHlo.after hostOps0_4 (W4 m ρ c) (Proc.devRef .tc main_arg3) = _
    generalize W4 m ρ c = V
    after_results_simp <;> rfl
  rw [h]; exact s4_arg3 m ρ c

theorem at5_arg4 (c : Dev nD) : W5 m ρ c (Proc.devRef .tc main_arg4) = A4 m c := by
  have h : W5 m ρ c (Proc.devRef .tc main_arg4) = W4 m ρ c (Proc.devRef .tc main_arg4) := by
    show StableHlo.after hostOps0_4 (W4 m ρ c) (Proc.devRef .tc main_arg4) = _
    generalize W4 m ρ c = V
    after_results_simp <;> rfl
  rw [h]; exact s4_arg4 m ρ c

theorem at5_arg5 (c : Dev nD) : W5 m ρ c (Proc.devRef .tc main_arg5) = A5 m c := by
  have h : W5 m ρ c (Proc.devRef .tc main_arg5) = W4 m ρ c (Proc.devRef .tc main_arg5) := by
    show StableHlo.after hostOps0_4 (W4 m ρ c) (Proc.devRef .tc main_arg5) = _
    generalize W4 m ρ c = V
    after_results_simp <;> rfl
  rw [h]; exact s4_arg5 m ρ c

/-- Region 0 leaves the projection in its result array. -/
theorem at6_v23 (c : Dev nD) : W6 m ρ c (Proc.devRef .tc main_v23) = P0 m c := by
  refine (W6_arr m ρ c 2).trans ((Tiles0.final0 (V5 m ρ) c).trans ?_)
  show Tiles0.proj128 (W5 m ρ c (Proc.devRef .tc main_arg0)) (W5 m ρ c (Proc.devRef .tc main_arg2)) = _
  rw [at5_arg0, at5_arg2]; rfl

theorem at6_v1 (c : Dev nD) : W6 m ρ c (Proc.devRef .tc main_v1) = nI m c := (W6_of_ne m ρ c main_v1 (by decide)).trans (at5_v1 m ρ c)

theorem at6_v3 (c : Dev nD) : W6 m ρ c (Proc.devRef .tc main_v3) = eI m c := (W6_of_ne m ρ c main_v3 (by decide)).trans (at5_v3 m ρ c)

theorem at6_v21 (c : Dev nD) : W6 m ρ c (Proc.devRef .tc main_v21) = dcol m c := (W6_of_ne m ρ c main_v21 (by decide)).trans (at5_v21 m ρ c)

theorem at6_v22 (c : Dev nD) : W6 m ρ c (Proc.devRef .tc main_v22) = bcol m c := (W6_of_ne m ρ c main_v22 (by decide)).trans (at5_v22 m ρ c)

theorem at6_arg3 (c : Dev nD) : W6 m ρ c (Proc.devRef .tc main_arg3) = A3 m c := (W6_of_ne m ρ c main_arg3 (by decide)).trans (at5_arg3 m ρ c)

theorem at6_arg4 (c : Dev nD) : W6 m ρ c (Proc.devRef .tc main_arg4) = A4 m c := (W6_of_ne m ρ c main_arg4 (by decide)).trans (at5_arg4 m ρ c)

theorem at6_arg5 (c : Dev nD) : W6 m ρ c (Proc.devRef .tc main_arg5) = A5 m c := (W6_of_ne m ρ c main_arg5 (by decide)).trans (at5_arg5 m ρ c)

/-- The first gather–add round, on the host. -/
theorem at7_v53 (c : Dev nD) : W7 m ρ c (Proc.devRef .tc main_v53) = N1 m c := by
  have h : W7 m ρ c (Proc.devRef .tc main_v53) = Ker.round128 (W6 m ρ c (Proc.devRef .tc main_v1)) (W6 m ρ c (Proc.devRef .tc main_v3)) (W6 m ρ c (Proc.devRef .tc main_v22)) (W6 m ρ c (Proc.devRef .tc main_v23)) := by
    show StableHlo.after hostOps1 (W6 m ρ c) (Proc.devRef .tc main_v53) = _
    generalize W6 m ρ c = V
    after_results_simp <;> rfl
  rw [h, at6_v1, at6_v3, at6_v22, at6_v23]
  try rfl

theorem at7_v54 (c : Dev nD) : W7 m ρ c (Proc.devRef .tc main_v54) = row3 m c := by
  have h : W7 m ρ c (Proc.devRef .tc main_v54) = shapeCast S1x128 (W6 m ρ c (Proc.devRef .tc main_arg3)) shapeCasts_S128_S1x128 := by
    show StableHlo.after hostOps1 (W6 m ρ c) (Proc.devRef .tc main_v54) = _
    generalize W6 m ρ c = V
    after_results_simp <;> rfl
  rw [h, at6_arg3]
  try rfl

theorem at7_v21 (c : Dev nD) : W7 m ρ c (Proc.devRef .tc main_v21) = dcol m c := by
  have h : W7 m ρ c (Proc.devRef .tc main_v21) = W6 m ρ c (Proc.devRef .tc main_v21) := by
    show StableHlo.after hostOps1 (W6 m ρ c) (Proc.devRef .tc main_v21) = _
    generalize W6 m ρ c = V
    after_results_simp <;> rfl
  rw [h]; exact at6_v21 m ρ c

theorem at7_arg4 (c : Dev nD) : W7 m ρ c (Proc.devRef .tc main_arg4) = A4 m c := by
  have h : W7 m ρ c (Proc.devRef .tc main_arg4) = W6 m ρ c (Proc.devRef .tc main_arg4) := by
    show StableHlo.after hostOps1 (W6 m ρ c) (Proc.devRef .tc main_arg4) = _
    generalize W6 m ρ c = V
    after_results_simp <;> rfl
  rw [h]; exact at6_arg4 m ρ c

theorem at7_v1 (c : Dev nD) : W7 m ρ c (Proc.devRef .tc main_v1) = nI m c := by
  have h : W7 m ρ c (Proc.devRef .tc main_v1) = W6 m ρ c (Proc.devRef .tc main_v1) := by
    show StableHlo.after hostOps1 (W6 m ρ c) (Proc.devRef .tc main_v1) = _
    generalize W6 m ρ c = V
    after_results_simp <;> rfl
  rw [h]; exact at6_v1 m ρ c

theorem at7_v3 (c : Dev nD) : W7 m ρ c (Proc.devRef .tc main_v3) = eI m c := by
  have h : W7 m ρ c (Proc.devRef .tc main_v3) = W6 m ρ c (Proc.devRef .tc main_v3) := by
    show StableHlo.after hostOps1 (W6 m ρ c) (Proc.devRef .tc main_v3) = _
    generalize W6 m ρ c = V
    after_results_simp <;> rfl
  rw [h]; exact at6_v3 m ρ c

theorem at7_v22 (c : Dev nD) : W7 m ρ c (Proc.devRef .tc main_v22) = bcol m c := by
  have h : W7 m ρ c (Proc.devRef .tc main_v22) = W6 m ρ c (Proc.devRef .tc main_v22) := by
    show StableHlo.after hostOps1 (W6 m ρ c) (Proc.devRef .tc main_v22) = _
    generalize W6 m ρ c = V
    after_results_simp <;> rfl
  rw [h]; exact at6_v22 m ρ c

theorem at7_arg5 (c : Dev nD) : W7 m ρ c (Proc.devRef .tc main_arg5) = A5 m c := by
  have h : W7 m ρ c (Proc.devRef .tc main_arg5) = W6 m ρ c (Proc.devRef .tc main_arg5) := by
    show StableHlo.after hostOps1 (W6 m ρ c) (Proc.devRef .tc main_arg5) = _
    generalize W6 m ρ c = V
    after_results_simp <;> rfl
  rw [h]; exact at6_arg5 m ρ c

/-- Region 1 leaves the fused product in its result array. -/
theorem at8_v55 (c : Dev nD) : W8 m ρ c (Proc.devRef .tc main_v55) = P1 m c := by
  refine (W8_arr m ρ c 4).trans ((Tiles1.final1 (V7 m ρ) c).trans ?_)
  show Tiles1.fused64 (W7 m ρ c (Proc.devRef .tc main_v53)) (W7 m ρ c (Proc.devRef .tc main_v21)) (W7 m ρ c (Proc.devRef .tc main_v54)) (W7 m ρ c (Proc.devRef .tc main_arg4)) = _
  rw [at7_v53, at7_v21, at7_v54, at7_arg4]; rfl

/-- An input window's array leaves a region as it entered. -/
theorem at8_v21 (c : Dev nD) : W8 m ρ c (Proc.devRef .tc main_v21) = dcol m c := ((W8_arr m ρ c 1).trans (((dat1 (V7 m ρ) c).arrAt_in 1 rfl _).trans (A_eq1 (V7 m ρ) c 1))).trans (at7_v21 m ρ c)

theorem at8_v1 (c : Dev nD) : W8 m ρ c (Proc.devRef .tc main_v1) = nI m c := (W8_of_ne m ρ c main_v1 (by decide)).trans (at7_v1 m ρ c)

theorem at8_v3 (c : Dev nD) : W8 m ρ c (Proc.devRef .tc main_v3) = eI m c := (W8_of_ne m ρ c main_v3 (by decide)).trans (at7_v3 m ρ c)

theorem at8_v22 (c : Dev nD) : W8 m ρ c (Proc.devRef .tc main_v22) = bcol m c := (W8_of_ne m ρ c main_v22 (by decide)).trans (at7_v22 m ρ c)

theorem at8_arg5 (c : Dev nD) : W8 m ρ c (Proc.devRef .tc main_arg5) = A5 m c := (W8_of_ne m ρ c main_arg5 (by decide)).trans (at7_arg5 m ρ c)

/-- The second gather–add round, on the host. -/
theorem at9_v85 (c : Dev nD) : W9 m ρ c (Proc.devRef .tc main_v85) = N2 m c := by
  have h : W9 m ρ c (Proc.devRef .tc main_v85) = Ker.round64 (W8 m ρ c (Proc.devRef .tc main_v1)) (W8 m ρ c (Proc.devRef .tc main_v3)) (W8 m ρ c (Proc.devRef .tc main_v22)) (W8 m ρ c (Proc.devRef .tc main_v55)) := by
    show StableHlo.after hostOps2 (W8 m ρ c) (Proc.devRef .tc main_v85) = _
    generalize W8 m ρ c = V
    after_results_simp <;> rfl
  rw [h, at8_v1, at8_v3, at8_v22, at8_v55]
  try rfl

theorem at9_v86 (c : Dev nD) : W9 m ρ c (Proc.devRef .tc main_v86) = row5 m c := by
  have h : W9 m ρ c (Proc.devRef .tc main_v86) = shapeCast S1x64 (W8 m ρ c (Proc.devRef .tc main_arg5)) shapeCasts_S64_S1x64 := by
    show StableHlo.after hostOps2 (W8 m ρ c) (Proc.devRef .tc main_v86) = _
    generalize W8 m ρ c = V
    after_results_simp <;> rfl
  rw [h, at8_arg5]
  try rfl

theorem at9_v21 (c : Dev nD) : W9 m ρ c (Proc.devRef .tc main_v21) = dcol m c := by
  have h : W9 m ρ c (Proc.devRef .tc main_v21) = W8 m ρ c (Proc.devRef .tc main_v21) := by
    show StableHlo.after hostOps2 (W8 m ρ c) (Proc.devRef .tc main_v21) = _
    generalize W8 m ρ c = V
    after_results_simp <;> rfl
  rw [h]; exact at8_v21 m ρ c

/-- THE RESULT: region 2 leaves the kernel program's value in the result buffer. -/
theorem at10_v87 (c : Dev nD) : W10 m ρ c (Proc.devRef .tc main_v87) = Ker.out (A0 m c) (A1 m c) (A2 m c) (A3 m c) (A4 m c) (A5 m c) := by
  refine (W10_arr m ρ c 3).trans ((Tiles.final2 (V9 m ρ) c).trans ?_)
  show Tiles.scaleShift64 (W9 m ρ c (Proc.devRef .tc main_v85)) (W9 m ρ c (Proc.devRef .tc main_v21)) (W9 m ρ c (Proc.devRef .tc main_v86)) = _
  rw [at9_v85, at9_v21, at9_v86]; rfl

end Cert.KernelIdeal.Fold

end
-- ==== Proof.RefSpec.lean ====
/-
  The reference's value, stage by stage, over the extended reals.

  One layer of the hypergraph convolution, for a feature matrix `A` with one row per node: gather `A`'s rows at the
  incidences' node numbers and add them into the incidences' hyperedges; scale every hyperedge's row by the guarded
  reciprocal of the hyperedge's size; gather those rows at the incidences' hyperedge numbers and add them into the
  incidences' nodes; scale every node's row by the guarded reciprocal of its degree and add the bias. Here a degree is
  the number of incidences that name the node (or hyperedge), computed as a sum of ones, and the guarded reciprocal of
  `d` is `1 / d` where `d > 0` and `0` elsewhere. The whole reference is
  `layer64 (x · W1 ↦ layer128 ↦ max · 0 ↦ · W2)`. Its run ends with the result at exactly this composition of the
  argument arrays.
-/
import proofs.«113165_j85074712199280_2_alg».proof.Proof.RefRun
import Idealize.ShloMosaic.PureOps.Ideal

set_option maxRecDepth 16384

noncomputable section

open Idealize.ShloMosaic Idealize.ShloMosaic.TcCoe Idealize.SL.Sem

namespace Cert.Hyper.Ref

open Cert.ReferenceIdeal Cert.ReferenceIdeal.Gen

/-- One 32-bit word per incidence. -/
abbrev Ix : Type := IVec S1600000 32

/-- The incidences' node numbers: row 0 of the index pair. -/
def nodeIx (a1 : IVec S2x1600000 32) : Ix :=
  shapeCast S1600000 (extractStridedSlice S1x1600000 ![0, 0] a1 slices_S2x1600000_S1x1600000_0_0) shapeCasts_S1x1600000_S1600000

/-- The incidences' hyperedge numbers: row 1 of the index pair. -/
def edgeIx (a1 : IVec S2x1600000 32) : Ix :=
  shapeCast S1600000 (extractStridedSlice S1x1600000 ![1, 0] a1 slices_S2x1600000_S1x1600000_1_0) shapeCasts_S1x1600000_S1600000

/-- A list of words as a one-column index array. -/
def col (z : Ix) : IVec S1600000x1 32 := broadcastInDim S1600000x1 ![0] bcast_S1600000_S1600000x1_0 z

/-- A negative word counted from the end of the 100000 rows. -/
def wrap (z : Ix) : Ix :=
  select (cmpi .slt z (broadcastInDim S1600000 ![] bcast_S_S1600000 (constantI S_ 32 0#32)))
    (addi z (broadcastInDim S1600000 ![] bcast_S_S1600000 (constantI S_ 32 100000#32))) z

/-- How many incidences name each of the 100000 rows: ones added in at the words. -/
def deg (z : Ix) : FVec Ideal S100000 .f32 :=
  Host.scatterAdd (F := Ideal) scatter_S100000_S1600000x1_S1600000_n_0_0_1
    (broadcastInDim S100000 ![] bcast_S_S100000 (constant (F := Ideal) S_ .f32 0x00000000#32)) (col z)
    (broadcastInDim S1600000 ![] bcast_S_S1600000 (constant (F := Ideal) S_ .f32 0x3F800000#32))

/-- `1 / d` where `d > 0`, zero elsewhere. -/
def inv (d : FVec Ideal S100000 .f32) : FVec Ideal S100000 .f32 :=
  select (cmpf (F := Ideal) .ogt d (broadcastInDim S100000 ![] bcast_S_S100000 (constant (F := Ideal) S_ .f32 0x00000000#32)))
    (Host.divf (F := Ideal) (broadcastInDim S100000 ![] bcast_S_S100000 (constant (F := Ideal) S_ .f32 0x3F800000#32)) d)
    (broadcastInDim S100000 ![] bcast_S_S100000 (id (constant (F := Ideal) S_ .f32 0x00000000#32)))

/-- A vector over the rows repeated across 128 (64) columns. -/
def cb128 (v : FVec Ideal S100000 .f32) : FVec Ideal S100000x128 .f32 :=
  broadcastInDim S100000x128 ![0, 1] bcast_S100000x1_S100000x128_0_1 (broadcastInDim S100000x1 ![0] bcast_S100000_S100000x1_0 v)
def cb64 (v : FVec Ideal S100000 .f32) : FVec Ideal S100000x64 .f32 :=
  broadcastInDim S100000x64 ![0, 1] bcast_S100000x1_S100000x64_0_1 (broadcastInDim S100000x1 ![0] bcast_S100000_S100000x1_0 v)

/-- A vector over the columns repeated down the rows. -/
def rb128 (b : FVec Ideal S128 .f32) : FVec Ideal S100000x128 .f32 :=
  broadcastInDim S100000x128 ![0, 1] bcast_S1x128_S100000x128_0_1 (broadcastInDim S1x128 ![1] bcast_S128_S1x128_1 b)
def rb64 (b : FVec Ideal S64 .f32) : FVec Ideal S100000x64 .f32 :=
  broadcastInDim S100000x64 ![0, 1] bcast_S1x64_S100000x64_0_1 (broadcastInDim S1x64 ![1] bcast_S64_S1x64_1 b)

/-- Rows added into the rows the words name, from zero. -/
def seg128 (z : Ix) (u : FVec Ideal S1600000x128 .f32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32)) (col z) u
def seg64 (z : Ix) (u : FVec Ideal S1600000x64 .f32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32)) (col z) u

/-- The rows the words name, one per incidence. -/
def take128 (a : FVec Ideal S100000x128 .f32) (z : Ix) : FVec Ideal S1600000x128 .f32 :=
  Host.gather gather_S100000x128_S1600000x1_S1600000x128_1_0_n_n_0_1_1128 a (col (wrap z))
def take64 (a : FVec Ideal S100000x64 .f32) (z : Ix) : FVec Ideal S1600000x64 .f32 :=
  Host.gather gather_S100000x64_S1600000x1_S1600000x64_1_0_n_n_0_1_164 a (col (wrap z))

/-- Nodes to hyperedges to nodes: the two gather–add rounds of a layer, the hyperedges' rows scaled in between. -/
def round128 (nI eI : Ix) (A : FVec Ideal S100000x128 .f32) : FVec Ideal S100000x128 .f32 :=
  seg128 nI (take128 (mulf (seg128 eI (take128 A nI)) (cb128 (inv (deg eI)))) eI)
def round64 (nI eI : Ix) (A : FVec Ideal S100000x64 .f32) : FVec Ideal S100000x64 .f32 :=
  seg64 nI (take64 (mulf (seg64 eI (take64 A nI)) (cb64 (inv (deg eI)))) eI)

/-- The first layer's activation: the nodes' rows scaled, shifted, cut off below at zero. -/
def hidden (nI eI : Ix) (a0 : FVec Ideal S100000x128 .f32) (a2 : FVec Ideal S128x128 .f32) (a3 : FVec Ideal S128 .f32) : FVec Ideal S100000x128 .f32 :=
  maximumf (addf (mulf (round128 nI eI (Host.dotGeneral (F := Ideal) dot_S100000x128_S128x128_S100000x128_1_0_0_1_n_n none a0 a2)) (cb128 (inv (deg nI)))) (rb128 a3))
    (broadcastInDim S100000x128 ![] bcast_S_S100000x128 (constant (F := Ideal) S_ .f32 0x00000000#32))

/-- The reference's result. -/
def out (a0 : FVec Ideal S100000x128 .f32) (a1 : IVec S2x1600000 32) (a2 : FVec Ideal S128x128 .f32) (a3 : FVec Ideal S128 .f32)
    (a4 : FVec Ideal S128x64 .f32) (a5 : FVec Ideal S64 .f32) : FVec Ideal S100000x64 .f32 :=
  addf (mulf (round64 (nodeIx a1) (edgeIx a1)
      (Host.dotGeneral (F := Ideal) dot_S100000x128_S128x64_S100000x64_1_0_0_1_n_n none (hidden (nodeIx a1) (edgeIx a1) a0 a2 a3) a4))
    (cb64 (inv (deg (nodeIx a1))))) (rb64 a5)

set_option maxRecDepth 65536 in
/-- The run's result term is this composition of the launch contents of the arguments. -/
theorem res_eq (m : (ℓ : Loc nD τ sig) → Buf (Elt Ideal) ℓ) (c : Dev nD) :
    Cert.ReferenceIdeal.ValueP.res_main_v98 m c
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v98 out hidden round64 round128 seg64 seg128 take64 take128 rb64 rb128 cb64 cb128 inv deg wrap col edgeIx nodeIx
  rfl

end Cert.Hyper.Ref

end
-- ==== Proof.LibRowOps.lean ====
/-
  Whole rows gathered from, and added into, a matrix — `jnp`'s `x[idx]` of a matrix `x : [N, C]` at a list of `E` row
  numbers, and `segment_sum` of an `[E, C]` matrix of rows into `N` segments — read at an index given by coordinates.

  * The gather (offset axis 1, collapsed axis 0, the start index one signed word per row of an `[E, 1]` array, slices
    `1 × C`): entry `(e, c)` of the result is `x` at row `idx[e, 0]`, read signed and clamped into `[0, N − 1]`,
    column `c`.
  * The accumulating scatter at the ideal instance (window axis 1, inserted axis 0, the row number one signed word per
    update row, not clamped): entry `(n, c)` of the result is the operand's entry plus the sum, over the update rows `e`
    whose word IS `n`, of the update's entry `(e, c)`. A row whose word is negative or at least `N` is dropped: it equals
    no `n`.

  Both for every `N`, `E`, `C`: a printed record with these lists is the record below (its well-formedness field is a
  proposition), so the lemmas apply to it after `show … = _ from rfl`.
-/
import Idealize.ShloMosaic.PureOps.Ideal
import Idealize.ShloMosaic.PureOps.Ideal.Laws
import Idealize.ShloMosaic.Lib.ValueIdx

noncomputable section

open scoped BigOperators

namespace Idealize.ShloMosaic.RowOps

open Idealize.ShloMosaic Idealize.ShloMosaic.ValueIdx

variable {N E C w : Nat}

/-- An axis is kept exactly when it is not in the list. -/
theorem mem_kept {s : Shape} (axes : List (Fin s.rank)) (a : Fin s.rank) : a ∈ s.kept axes ↔ a ∉ axes := by
  simp [Shape.kept, List.mem_filter, List.mem_finRange]

/-- Axis 1 is not in the list `[0]`. -/
theorem one_not_mem {s : Shape} (h : s.rank = 2) : (⟨1, by omega⟩ : Fin s.rank) ∉ [(⟨0, by omega⟩ : Fin s.rank)] :=
  fun hm => absurd (congrArg Fin.val (List.mem_singleton.mp hm)) Nat.one_ne_zero

/-! ## Rows gathered -/

/-- The dimension numbers of a gather of whole rows. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a gathered row comes from: the start word read signed, clamped into `[0, N − 1]`. -/
def srcRow (hN : 0 < N) (idx : IVec ⟨2, ![E, 1]⟩ w) (e : Fin E) : Fin N :=
  ⟨min (idx (ix2 e (0 : Fin 1))).toInt.toNat (N - 1), by omega⟩

/-- THE GATHER READ AT `(e, c)`. -/
theorem gather_rows_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (srcRow hN idx e) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin (⟨2, ![N, C]⟩ : Shape).rank) ∈ (rowGatherDims N E C wf).startIndexMap from List.mem_singleton.mpr rfl)]
    have hsi : (rowGatherDims N E C wf).siIdx (ix2 e c) ⟨List.idxOf (0 : Fin (⟨2, ![N, C]⟩ : Shape).rank) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = _
    rw [GatherDims.batchCoord_eq_zero _ _ _ List.not_mem_nil]
    unfold GatherDims.start
    rw [dif_neg (show ¬ (1 : Fin (⟨2, ![N, C]⟩ : Shape).rank) ∈ (rowGatherDims N E C wf).startIndexMap from one_not_mem rfl)]
    simp only [Nat.zero_add, Nat.add_zero]
    rfl

/-! ## Rows added in -/

/-- The dimension numbers of a scatter of whole rows. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable (wf : ScatterDims.WF ⟨2, ![N, C]⟩ ⟨2, ![E, 1]⟩ ⟨2, ![E, C]⟩ [1] [0] [0] 1) (idx : IVec ⟨2, ![E, 1]⟩ w)

theorem start_row (e : Fin E) (c' : Fin C) :
    (rowScatterDims N E C wf).start (ix2 e c') idx 0 = (idx (ix2 e (0 : Fin 1))).toInt := by
  unfold ScatterDims.start
  rw [dif_pos (show (0 : Fin (⟨2, ![N, C]⟩ : Shape).rank) ∈ (rowScatterDims N E C wf).scatterDimsToOperandDims from List.mem_singleton.mpr rfl)]
  have hsi : (rowScatterDims N E C wf).siIdx (ix2 e c') ⟨List.idxOf (0 : Fin (⟨2, ![N, C]⟩ : Shape).rank) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem start_col (e : Fin E) (c' : Fin C) : (rowScatterDims N E C wf).start (ix2 e c') idx 1 = 0 := by
  unfold ScatterDims.start
  rw [dif_neg (show ¬ (1 : Fin (⟨2, ![N, C]⟩ : Shape).rank) ∈ (rowScatterDims N E C wf).scatterDimsToOperandDims from one_not_mem rfl)]

theorem window_row (e : Fin E) (c' : Fin C) : (rowScatterDims N E C wf).window (ix2 e c') 0 = 0 := by
  unfold ScatterDims.window
  rw [dif_neg (show ¬ (0 : Fin (⟨2, ![N, C]⟩ : Shape).rank) ∈ (rowScatterDims N E C wf).sKept from fun h => (mem_kept _ _).mp h (List.mem_singleton.mpr rfl))]

theorem window_col (e : Fin E) (c' : Fin C) : (rowScatterDims N E C wf).window (ix2 e c') 1 = c'.val := by
  unfold ScatterDims.window
  rw [dif_pos (show (1 : Fin (⟨2, ![N, C]⟩ : Shape).rank) ∈ (rowScatterDims N E C wf).sKept from (mem_kept _ _).mpr (one_not_mem rfl))]
  rfl

/-- Update entry `(e, c')` lands on `(n, c)` exactly when it is in column `c` and row `e`'s word is `n`. -/
theorem resultIdx?_rows (e : Fin E) (c' : Fin C) (n : Fin N) (c : Fin C) :
    (rowScatterDims N E C wf).resultIdx? (ix2 e c') idx = some (ix2 n c)
      ↔ c' = c ∧ (idx (ix2 e (0 : Fin 1))).toInt = (n.val : Int) := by
  have hn : n.val < N := n.isLt
  have hc : c.val < C := c.isLt
  have hc' : c'.val < C := c'.isLt
  unfold ScatterDims.resultIdx?
  split
  · rename_i h
    rw [Option.some.injEq]
    have h0 := h 0
    have h1 := h 1
    rw [start_row, window_row] at h0
    rw [start_col, window_col] at h1
    constructor
    · intro hf
      have e0 : ((rowScatterDims N E C wf).start (ix2 e c') idx 0 + ((rowScatterDims N E C wf).window (ix2 e c') 0 : Int)).toNat = n.val :=
        congrArg (fun f : (⟨2, ![N, C]⟩ : Shape).Idx => (f 0).val) hf
      have e1 : ((rowScatterDims N E C wf).start (ix2 e c') idx 1 + ((rowScatterDims N E C wf).window (ix2 e c') 1 : Int)).toNat = c.val :=
        congrArg (fun f : (⟨2, ![N, C]⟩ : Shape).Idx => (f 1).val) hf
      rw [start_row, window_row] at e0
      rw [start_col, window_col] at e1
      exact ⟨Fin.ext (by omega), by omega⟩
    · rintro ⟨rfl, hw⟩
      funext a
      refine Fin.ext ?_
      match a with
      | ⟨0, _⟩ =>
        show ((rowScatterDims N E C wf).start (ix2 e c') idx 0 + ((rowScatterDims N E C wf).window (ix2 e c') 0 : Int)).toNat = n.val
        rw [start_row, window_row]; omega
      | ⟨1, _⟩ =>
        show ((rowScatterDims N E C wf).start (ix2 e c') idx 1 + ((rowScatterDims N E C wf).window (ix2 e c') 1 : Int)).toNat = c'.val
        rw [start_col, window_col]; omega
  · rename_i h
    constructor
    · intro hf; exact absurd hf (by simp)
    · rintro ⟨rfl, hw⟩
      exfalso
      apply h
      intro a
      match a with
      | ⟨0, _⟩ =>
        show 0 ≤ (rowScatterDims N E C wf).start (ix2 e c') idx 0 + ((rowScatterDims N E C wf).window (ix2 e c') 0 : Int)
          ∧ (rowScatterDims N E C wf).start (ix2 e c') idx 0 + ((rowScatterDims N E C wf).window (ix2 e c') 0 : Int) < (N : Int)
        rw [start_row, window_row]; omega
      | ⟨1, _⟩ =>
        show 0 ≤ (rowScatterDims N E C wf).start (ix2 e c') idx 1 + ((rowScatterDims N E C wf).window (ix2 e c') 1 : Int)
          ∧ (rowScatterDims N E C wf).start (ix2 e c') idx 1 + ((rowScatterDims N E C wf).window (ix2 e c') 1 : Int) < (C : Int)
        rw [start_col, window_col]; omega

/-- THE ACCUMULATING SCATTER READ AT `(n, c)`, at the ideal instance. -/
theorem scatterAdd_rows_apply (x : (⟨2, ![N, C]⟩ : Shape).Idx → EReal) (upd : (⟨2, ![E, C]⟩ : Shape).Idx → EReal)
    (n : Fin N) (c : Fin C) :
    Host.scatterAdd (F := Ideal) (φ := .f32) (rowScatterDims N E C wf) x idx upd (ix2 n c)
      = x (ix2 n c) + ∑ e : Fin E, if (idx (ix2 e (0 : Fin 1))).toInt = (n.val : Int) then upd (ix2 e c) else 0 := by
  show x (ix2 n c) + ∑ j ∈ Finset.univ.filter (fun j => (rowScatterDims N E C wf).resultIdx? j idx = some (ix2 n c)), upd j = _
  congr 1
  rw [Finset.sum_filter, sum_idx2]
  refine Finset.sum_congr rfl fun e _ => ?_
  simp only [resultIdx?_rows]
  by_cases hw : (idx (ix2 e (0 : Fin 1))).toInt = (n.val : Int)
  · simp only [hw, and_true, if_true]
    rw [Finset.sum_ite_eq' Finset.univ c (fun c' => upd (ix2 e c'))]
    simp
  · simp only [hw, and_false, if_false, Finset.sum_const_zero]

end Scatter

end Idealize.ShloMosaic.RowOps

end
-- ==== Proof.LibBroadcastInDim.lean ====
/-
  The host's `broadcast_in_dim` read at an index given by coordinates, in the shapes a row-wise or column-wise scale
  or bias takes: a vector of length `a` placed as an `[a, 1]` column (`dims = [0]`) or of length `b` as a `[1, b]`
  row (`dims = [1]`); an `[a, 1]` column repeated across `b` columns and a `[1, b]` row repeated down `a` rows
  (`dims = [0, 1]`); and a scalar spread over any shape (`dims = []`). Each reads the operand at the coordinates the
  result's index has on the axes `dims` names, and at `0` on the operand's unit axes. For every extent.
-/
import Idealize.ShloMosaic.Lib.Pipeline.Value
import Idealize.ShloMosaic.Lib.ValueIdx

namespace Idealize.ShloMosaic.BroadcastInDimAt

open Idealize.ShloMosaic Idealize.ShloMosaic.ValueIdx

variable {α : Type}

/-- A vector as a column: entry `(p, u)` is the vector's entry `p`. -/
theorem vec_col_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h v (ix2 p u) = v (ix1 p) :=
  broadcastInDim_apply _ h v (ix2 p u) (ix1 p) fun ax => by
    match ax with
    | ⟨0, _⟩ =>
      show p.val = if a = 1 then 0 else p.val
      split
      · have := p.isLt; omega
      · rfl

/-- A vector as a row: entry `(u, q)` is the vector's entry `q`. -/
theorem vec_row_apply {b : ℕ} (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h v (ix2 u q) = v (ix1 q) :=
  broadcastInDim_apply _ h v (ix2 u q) (ix1 q) fun ax => by
    match ax with
    | ⟨0, _⟩ =>
      show q.val = if b = 1 then 0 else q.val
      split
      · have := q.isLt; omega
      · rfl

/-- A column repeated across the columns: entry `(p, q)` is the column's entry of row `p`. -/
theorem col_mat_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 p (0 : Fin 1)) :=
  broadcastInDim_apply _ h v (ix2 p q) (ix2 p (0 : Fin 1)) fun ax => by
    match ax with
    | ⟨0, _⟩ =>
      show p.val = if a = 1 then 0 else p.val
      split
      · have := p.isLt; omega
      · rfl
    | ⟨1, _⟩ => rfl

/-- A row repeated down the rows: entry `(p, q)` is the row's entry of column `q`. -/
theorem row_mat_apply {a b : ℕ} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 (0 : Fin 1) q) :=
  broadcastInDim_apply _ h v (ix2 p q) (ix2 (0 : Fin 1) q) fun ax => by
    match ax with
    | ⟨0, _⟩ => rfl
    | ⟨1, _⟩ =>
      show q.val = if b = 1 then 0 else q.val
      split
      · have := q.isLt; omega
      · rfl

/-- A scalar spread over a shape: every entry is the scalar. -/
theorem scalar_apply {t : Shape} (v : (⟨0, ![]⟩ : Shape).Idx → α)
    (h : (⟨0, ![]⟩ : Shape).BroadcastsInDim t (![] : Fin 0 → Fin t.rank)) (i : t.Idx) :
    broadcastInDim t (![] : Fin 0 → Fin t.rank) h v i = v ix0 :=
  broadcastInDim_apply _ h v i ix0 fun ax => ax.elim0

end Idealize.ShloMosaic.BroadcastInDimAt
-- ==== Proof.Bridge.lean ====
/-
  The kernel program's value is the reference's.

  The two programs share the index rows, the degrees and their guarded reciprocals, and the gather and add-in
  operations, term for term. They differ in four places, each an identity on the extended reals read index by index:
  * the tiled projection `∑ k, x (i, k) · W (k, j)` is the host's matrix product at `(i, j)`;
  * within a round the reference scales the hyperedges' rows by their reciprocal sizes and then gathers them, the
    kernel gathers the rows and the reciprocal sizes separately and multiplies per incidence — a gather reads its
    operand at the row the incidence's word names (clamped into range), so both read
    `E (s, c) · b⁻¹ (s)` at incidence `e`, column `c`, with `s` that row;
  * the fused tile `∑ k, max (raw (i, k) · d⁻¹ (i) + b (k)) 0 · W (k, j)` is the host's matrix product of the
    activation `max (raw · d⁻¹ + b) 0`, the reciprocal degrees read from a one-column matrix in one and from a
    broadcast vector in the other;
  * the last tile `raw (i, j) · d⁻¹ (i) + b (j)` is the host's multiply and add of the same broadcasts.
  None of them uses more than the definitions of the operations: no distributivity, no cancellation, so nothing is
  asked of the inputs.
-/
import proofs.«113165_j85074712199280_2_alg».proof.Proof.KerSpec
import proofs.«113165_j85074712199280_2_alg».proof.Proof.RefSpec
import proofs.«113165_j85074712199280_2_alg».proof.Proof.LibRowOps
import proofs.«113165_j85074712199280_2_alg».proof.Proof.LibPlainDot
import proofs.«113165_j85074712199280_2_alg».proof.Proof.LibColumn
import proofs.«113165_j85074712199280_2_alg».proof.Proof.LibBroadcastInDim
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

open scoped BigOperators

namespace Cert.Hyper.Bridge

open Cert.Hyper

/-- One 32-bit word per incidence. -/
abbrev Ix : Type := IVec ⟨1, ![1600000]⟩ 32

/-! ## The shared vocabulary -/

theorem nodeIx_eq (a1 : IVec ⟨2, ![2, 1600000]⟩ 32) : Ker.nodeIx a1 = Ref.nodeIx a1 := rfl
theorem edgeIx_eq (a1 : IVec ⟨2, ![2, 1600000]⟩ 32) : Ker.edgeIx a1 = Ref.edgeIx a1 := rfl
theorem idx_eq (z : Ix) : Ker.col (Ker.wrap z) = Ref.col (Ref.wrap z) := rfl
theorem deg_eq (z : Ix) : Ker.deg z = Ref.deg z := rfl
theorem inv_eq (d : FVec Ideal ⟨1, ![100000]⟩ .f32) : Ker.inv d = Ref.inv d := rfl
theorem seg128_eq (z : Ix) (u : FVec Ideal ⟨2, ![1600000, 128]⟩ .f32) : Ker.seg128 z u = Ref.seg128 z u := rfl
theorem seg64_eq (z : Ix) (u : FVec Ideal ⟨2, ![1600000, 64]⟩ .f32) : Ker.seg64 z u = Ref.seg64 z u := rfl

/-! ## The gathers read at an incidence -/

/-- The row an incidence's word names: read signed, a negative word counted from the end, clamped into range. -/
def src (z : Ix) (e : Fin 1600000) : Fin 100000 :=
  RowOps.srcRow (N := 100000) (E := 1600000) (by decide) (Ref.col (Ref.wrap z)) e

theorem ker_take128_apply {φ : FTy} (a : FVec Ideal ⟨2, ![100000, 128]⟩ φ) (z : Ix) (e : Fin 1600000) (c : Fin 128) :
    Ker.take128 a z (ix2 e c) = a (ix2 (src z e) c) :=
  RowOps.gather_rows_apply (N := 100000) (E := 1600000) (C := 128) (by decide)
    Cert.KernelIdeal.Gen.gather_S100000x128_S1600000x1_S1600000x128_1_0_n_n_0_1_1128_wf a (Ker.col (Ker.wrap z)) e c

theorem ker_take64_apply {φ : FTy} (a : FVec Ideal ⟨2, ![100000, 64]⟩ φ) (z : Ix) (e : Fin 1600000) (c : Fin 64) :
    Ker.take64 a z (ix2 e c) = a (ix2 (src z e) c) :=
  RowOps.gather_rows_apply (N := 100000) (E := 1600000) (C := 64) (by decide)
    Cert.KernelIdeal.Gen.gather_S100000x64_S1600000x1_S1600000x64_1_0_n_n_0_1_164_wf a (Ker.col (Ker.wrap z)) e c

theorem ker_takeCol_apply (v : FVec Ideal ⟨2, ![100000, 1]⟩ .f32) (z : Ix) (e : Fin 1600000) (u : Fin 1) :
    Ker.takeCol v z (ix2 e u) = v (ix2 (src z e) u) :=
  RowOps.gather_rows_apply (N := 100000) (E := 1600000) (C := 1) (by decide)
    Cert.KernelIdeal.Gen.gather_S100000x1_S1600000x1_S1600000x1_1_0_n_n_0_1_11_wf v (Ker.col (Ker.wrap z)) e u

theorem ref_take128_apply (a : FVec Ideal ⟨2, ![100000, 128]⟩ .f32) (z : Ix) (e : Fin 1600000) (c : Fin 128) :
    Ref.take128 a z (ix2 e c) = a (ix2 (src z e) c) :=
  RowOps.gather_rows_apply (N := 100000) (E := 1600000) (C := 128) (by decide)
    Cert.ReferenceIdeal.Gen.gather_S100000x128_S1600000x1_S1600000x128_1_0_n_n_0_1_1128_wf a (Ref.col (Ref.wrap z)) e c

theorem ref_take64_apply (a : FVec Ideal ⟨2, ![100000, 64]⟩ .f32) (z : Ix) (e : Fin 1600000) (c : Fin 64) :
    Ref.take64 a z (ix2 e c) = a (ix2 (src z e) c) :=
  RowOps.gather_rows_apply (N := 100000) (E := 1600000) (C := 64) (by decide)
    Cert.ReferenceIdeal.Gen.gather_S100000x64_S1600000x1_S1600000x64_1_0_n_n_0_1_164_wf a (Ref.col (Ref.wrap z)) e c

/-! ## The broadcasts read at an entry -/

theorem cb128_apply (v : FVec Ideal ⟨1, ![100000]⟩ .f32) (p : Fin 100000) (q : Fin 128) : Ref.cb128 v (ix2 p q) = v (ix1 p) :=
  (BroadcastInDimAt.col_mat_apply _ _ p q).trans (BroadcastInDimAt.vec_col_apply v _ p 0)
theorem cb64_apply (v : FVec Ideal ⟨1, ![100000]⟩ .f32) (p : Fin 100000) (q : Fin 64) : Ref.cb64 v (ix2 p q) = v (ix1 p) :=
  (BroadcastInDimAt.col_mat_apply _ _ p q).trans (BroadcastInDimAt.vec_col_apply v _ p 0)
theorem rb128_apply (b : FVec Ideal ⟨1, ![128]⟩ .f32) (p : Fin 100000) (q : Fin 128) : Ref.rb128 b (ix2 p q) = b (ix1 q) :=
  (BroadcastInDimAt.row_mat_apply _ _ p q).trans (BroadcastInDimAt.vec_row_apply b _ 0 q)
theorem rb64_apply (b : FVec Ideal ⟨1, ![64]⟩ .f32) (p : Fin 100000) (q : Fin 64) : Ref.rb64 b (ix2 p q) = b (ix1 q) :=
  (BroadcastInDimAt.row_mat_apply _ _ p q).trans (BroadcastInDimAt.vec_row_apply b _ 0 q)
theorem asCol_apply (v : FVec Ideal ⟨1, ![100000]⟩ .f32) (p : Fin 100000) (u : Fin 1) : Ker.asCol v (ix2 p u) = v (ix1 p) :=
  ColumnLayout.shapeCast_a_a1_apply v _ p u
theorem spread128_apply (w : FVec Ideal ⟨2, ![1600000, 1]⟩ .f32) (e : Fin 1600000) (c : Fin 128) : Ker.spread128 w (ix2 e c) = w (ix2 e (0 : Fin 1)) :=
  BroadcastInDimAt.col_mat_apply w _ e c
theorem spread64_apply (w : FVec Ideal ⟨2, ![1600000, 1]⟩ .f32) (e : Fin 1600000) (c : Fin 64) : Ker.spread64 w (ix2 e c) = w (ix2 e (0 : Fin 1)) :=
  BroadcastInDimAt.col_mat_apply w _ e c

/-! ## The four places the programs differ -/

/-- The tiled projection is the host's matrix product. -/
theorem proj_eq (a0 : FVec Ideal ⟨2, ![100000, 128]⟩ .f32) (a2 : FVec Ideal ⟨2, ![128, 128]⟩ .f32) :
    Cert.KernelIdeal.Tiles0.proj128 a0 a2
      = Host.dotGeneral (F := Ideal) Cert.ReferenceIdeal.dot_S100000x128_S128x128_S100000x128_1_0_0_1_n_n none a0 a2 := by
  funext i
  obtain ⟨p, q, rfl⟩ : ∃ (p : Fin 100000) (q : Fin 128), i = ix2 p q := ⟨i 0, i 1, eq_ix2 i⟩
  exact (PlainDot.dotGeneral_apply (M := 100000) (K := 128) (N := 128) none a0 a2 p q).symm

/-- A round with the reciprocal sizes applied per incidence is the round with the hyperedges' rows scaled first. -/
theorem round128_eq (nI eI : Ix) (P : FVec Ideal ⟨2, ![100000, 128]⟩ .bf16) :
    Ker.round128 nI eI (Ker.asCol (Ker.inv (Ker.deg eI))) P = Ref.round128 nI eI P := by
  unfold Ker.round128 Ref.round128
  refine (seg128_eq nI _).trans (congrArg (Ref.seg128 nI) ?_)
  funext j
  obtain ⟨e, c, rfl⟩ : ∃ (e : Fin 1600000) (c : Fin 128), j = ix2 e c := ⟨j 0, j 1, eq_ix2 j⟩
  refine (mulf_apply _ _ _).trans ?_
  refine Eq.trans ?_ (ref_take128_apply _ eI e c).symm
  refine Eq.trans ?_ (mulf_apply _ _ _).symm
  refine congrArg₂ (· * ·) (ker_take128_apply _ eI e c) ?_
  refine (spread128_apply _ e c).trans ((ker_takeCol_apply _ eI e 0).trans ?_)
  exact (asCol_apply _ _ 0).trans (cb128_apply _ _ c).symm

theorem round64_eq (nI eI : Ix) (P : FVec Ideal ⟨2, ![100000, 64]⟩ .bf16) :
    Ker.round64 nI eI (Ker.asCol (Ker.inv (Ker.deg eI))) P = Ref.round64 nI eI P := by
  unfold Ker.round64 Ref.round64
  refine (seg64_eq nI _).trans (congrArg (Ref.seg64 nI) ?_)
  funext j
  obtain ⟨e, c, rfl⟩ : ∃ (e : Fin 1600000) (c : Fin 64), j = ix2 e c := ⟨j 0, j 1, eq_ix2 j⟩
  refine (mulf_apply _ _ _).trans ?_
  refine Eq.trans ?_ (ref_take64_apply _ eI e c).symm
  refine Eq.trans ?_ (mulf_apply _ _ _).symm
  refine congrArg₂ (· * ·) (ker_take64_apply _ eI e c) ?_
  refine (spread64_apply _ e c).trans ((ker_takeCol_apply _ eI e 0).trans ?_)
  exact (asCol_apply _ _ 0).trans (cb64_apply _ _ c).symm

/-- The fused tile is the host's matrix product of the activation. -/
theorem fused_eq (N : FVec Ideal ⟨2, ![100000, 128]⟩ .f32) (dinv : FVec Ideal ⟨1, ![100000]⟩ .f32) (a3 : FVec Ideal ⟨1, ![128]⟩ .f32)
    (a4 : FVec Ideal ⟨2, ![128, 64]⟩ .f32) :
    Cert.KernelIdeal.Tiles1.fused64 N (Ker.asCol dinv) (shapeCast ⟨2, ![1, 128]⟩ a3 Cert.KernelIdeal.Gen.shapeCasts_S128_S1x128) a4
      = Host.dotGeneral (F := Ideal) Cert.ReferenceIdeal.dot_S100000x128_S128x64_S100000x64_1_0_0_1_n_n none
          (maximumf (addf (mulf N (Ref.cb128 dinv)) (Ref.rb128 a3))
            (broadcastInDim ⟨2, ![100000, 128]⟩ ![] Cert.ReferenceIdeal.Gen.bcast_S_S100000x128 (constant (F := Ideal) ⟨0, ![]⟩ .f32 0x00000000#32))) a4 := by
  funext i
  obtain ⟨p, q, rfl⟩ : ∃ (p : Fin 100000) (q : Fin 64), i = ix2 p q := ⟨i 0, i 1, eq_ix2 i⟩
  refine Eq.trans ?_ (PlainDot.dotGeneral_apply (M := 100000) (K := 128) (N := 64) none _ a4 p q).symm
  unfold Cert.KernelIdeal.Tiles1.fused64
  refine Finset.sum_congr rfl fun k _ => congrArg₂ (· * ·) ?_ rfl
  refine Eq.trans ?_ (maximumf_apply _ _ _).symm
  refine congrArg₂ max ?_ (show Ideal.ofBits .f32 0x00000000#32 = _ from
    (BroadcastInDimAt.scalar_apply (constant (F := Ideal) ⟨0, ![]⟩ .f32 0x00000000#32) Cert.ReferenceIdeal.Gen.bcast_S_S100000x128 (ix2 p k)).symm)
  refine Eq.trans ?_ (addf_apply _ _ _).symm
  refine congrArg₂ (· + ·) (Eq.trans ?_ (mulf_apply _ _ _).symm) ?_
  · exact congrArg₂ (· * ·) rfl ((asCol_apply dinv p 0).trans (cb128_apply dinv p k).symm)
  · exact (shapeCast_a_1a_apply a3 _ 0 k).trans (rb128_apply a3 p k).symm

/-- The last tile is the host's multiply and add. -/
theorem scale_eq (N : FVec Ideal ⟨2, ![100000, 64]⟩ .f32) (dinv : FVec Ideal ⟨1, ![100000]⟩ .f32) (a5 : FVec Ideal ⟨1, ![64]⟩ .f32) :
    Cert.KernelIdeal.Tiles.scaleShift64 N (Ker.asCol dinv) (shapeCast ⟨2, ![1, 64]⟩ a5 Cert.KernelIdeal.Gen.shapeCasts_S64_S1x64)
      = addf (mulf N (Ref.cb64 dinv)) (Ref.rb64 a5) := by
  funext i
  obtain ⟨p, q, rfl⟩ : ∃ (p : Fin 100000) (q : Fin 64), i = ix2 p q := ⟨i 0, i 1, eq_ix2 i⟩
  unfold Cert.KernelIdeal.Tiles.scaleShift64
  refine Eq.trans ?_ (addf_apply _ _ _).symm
  refine congrArg₂ (· + ·) (Eq.trans ?_ (mulf_apply _ _ _).symm) ?_
  · exact congrArg₂ (· * ·) rfl ((asCol_apply dinv p 0).trans (cb64_apply dinv p q).symm)
  · exact (shapeCast_a_1a_apply a5 _ 0 q).trans (rb64_apply a5 p q).symm

/-! ## The two results -/

/-- The kernel program's result is the reference's, for all argument arrays. -/
theorem out_eq (a0 : FVec Ideal ⟨2, ![100000, 128]⟩ .f32) (a1 : IVec ⟨2, ![2, 1600000]⟩ 32) (a2 : FVec Ideal ⟨2, ![128, 128]⟩ .f32)
    (a3 : FVec Ideal ⟨1, ![128]⟩ .f32) (a4 : FVec Ideal ⟨2, ![128, 64]⟩ .f32) (a5 : FVec Ideal ⟨1, ![64]⟩ .f32) :
    Ker.out a0 a1 a2 a3 a4 a5 = Ref.out a0 a1 a2 a3 a4 a5 := by
  unfold Ker.out
  rw [proj_eq a0 a2, round128_eq, fused_eq, round64_eq, scale_eq]
  rfl

end Cert.Hyper.Bridge

end
-- ==== Proof.lean ====
/-
  The certificate of a two-layer hypergraph convolution (nodes → hyperedges → nodes, twice, with a maximum against zero
  in between) computed by three row-tiled kernels among host gathers and add-ins, against its plain reference.

  * The word-level and the idealized kernel programs run to the end, fault nowhere and leave their arguments alone:
    the three regions' tiled runs and the host stretches between them, segment by segment.
  * The reference runs to the end likewise; its result is one composition of the host operations of its arguments.
  * Nothing was rewritten between the word-level and the idealized kernel program, so there is nothing to preserve.
  * Over the extended reals the two idealized programs end with the same result from the same arguments. The kernel's
    result buffer ends at the composition of its three tiles' closed forms with the two gather–add rounds
    (Proof/Fold.lean over Proof/Project0.lean, Proof/Fused1.lean, Proof/Affine2.lean), the reference's at its own
    composition (Proof/RefSpec.lean), and the two compositions are one function of the arguments (Proof/Bridge.lean):
    a matrix product is the same sum on either side; a gather of a scaled matrix is the scaled gather, row by row; the
    reciprocal degrees reach the rows through a column in one program and through a broadcast in the other. No law used
    needs the inputs finite, so the precondition is not opened.
-/
import proofs.«113165_j85074712199280_2_alg».proof.Defs
import proofs.«113165_j85074712199280_2_alg».proof.Proof.Gen.Kernel
import proofs.«113165_j85074712199280_2_alg».proof.Proof.Gen.Kernel.Frame
import proofs.«113165_j85074712199280_2_alg».proof.Proof.Gen.KernelIdeal
import proofs.«113165_j85074712199280_2_alg».proof.Proof.Gen.KernelIdeal.Frame
import proofs.«113165_j85074712199280_2_alg».proof.Proof.Gen.ReferenceIdeal
import proofs.«113165_j85074712199280_2_alg».proof.Proof.Gen.Pre_finite_inputs
import proofs.«113165_j85074712199280_2_alg».proof.Proof.RefRun
import proofs.«113165_j85074712199280_2_alg».proof.Proof.KernelRun
import proofs.«113165_j85074712199280_2_alg».proof.Proof.Fold
import proofs.«113165_j85074712199280_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both idealized programs end at the kernel program's value of the arguments: the kernel by its boundaries read
    back to the launch memory, the reference because its own composition is that value. -/
theorem algebraic : Cert.algebraic_KernelIdeal_ReferenceIdeal := by
  intro m ρ m' ρ' _ hagree
  refine ⟨fun c => Cert.Hyper.Ker.out (Cert.KernelIdeal.Fold.A0 m c) (Cert.KernelIdeal.Fold.A1 m c) (Cert.KernelIdeal.Fold.A2 m c)
      (Cert.KernelIdeal.Fold.A3 m c) (Cert.KernelIdeal.Fold.A4 m c) (Cert.KernelIdeal.Fold.A5 m c), ?_, ?_⟩
  · exact (θ_run Cert.KernelIdeal.defs _ _).mono (fun _ h c => ⟨(h c).1.trans (Cert.KernelIdeal.Fold.at10_v87 m ρ c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.Hyper.Ref.res_eq m' c, (hagree c).1, (hagree c).2.1, (hagree c).2.2.1, (hagree c).2.2.2.1, (hagree c).2.2.2.2.1,
      (hagree c).2.2.2.2.2]
    exact (Cert.Hyper.Bridge.out_eq _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
